-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64x40 .f32) (main_arg8 : FVec F S40 .f32) (main_v33 : IVec S_ 1) : IVec S_ 1 :=
  let main_v34 : FVec F S64x40 .f32 := Host.absf main_arg7
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S64 .f32) (main_arg5 : FVec F S3x64x64 .f32) (main_arg6 : FVec F S3x64 .f32) (main_arg7 : FVec F S64x40 .f32) (main_arg8 : FVec F S40 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x8192 .f32) (main_arg2 : FVec F S8192x8192 .f32) (main_arg3 : FVec F S1024x64 .f32) (main_arg4 : FVec F S64 .f32) (main_arg5 : FVec F S3x64x64 .f32) (main_arg6 : FVec F S3x64 .f32) (main_arg7 : FVec F S64x40 .f32) (main_arg8 : FVec F S40 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x64 : Shape := ⟨2, ![1, 64]⟩
abbrev S8192x64 : Shape := ⟨2, ![8192, 64]⟩
abbrev S1024x1024 : Shape := ⟨2, ![1024, 1024]⟩
abbrev S1x64x64 : Shape := ⟨3, ![1, 64, 64]⟩
abbrev S64x64 : Shape := ⟨2, ![64, 64]⟩
abbrev S256x8192 : Shape := ⟨2, ![256, 8192]⟩
abbrev S256x64 : Shape := ⟨2, ![256, 64]⟩
abbrev S1024x8192 : Shape := ⟨2, ![1024, 8192]⟩
abbrev S1x40 : Shape := ⟨2, ![1, 40]⟩
abbrev S8192x40 : Shape := ⟨2, ![8192, 40]⟩
abbrev S1024x40 : Shape := ⟨2, ![1024, 40]⟩

abbrev nBuf : Space → Nat
  | .hbm => 32
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x40, .f32⟩
  | .hbm, ⟨8, _⟩ => ⟨S40, .f32⟩
  | .hbm, ⟨9, _⟩ => ⟨S1x64, .f32⟩
  | .hbm, ⟨10, _⟩ => ⟨S8192x64, .f32⟩
  | .hbm, ⟨11, _⟩ => ⟨S1x64x64, .f32⟩
  | .hbm, ⟨12, _⟩ => ⟨S64x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S8192x64, .f32⟩
  | .hbm, ⟨17, _⟩ => ⟨S8192x8192, .bf16⟩
  | .hbm, ⟨18, _⟩ => ⟨S1x64x64, .f32⟩
  | .hbm, ⟨19, _⟩ => ⟨S64x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S8192x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S8192x64, .f32⟩
  | .hbm, ⟨30, _⟩ => ⟨S1x40, .f32⟩
  | .hbm, ⟨31, _⟩ => ⟨S8192x40, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S256x8192, .f32⟩
  | .local _ .vmem, ⟨7, _⟩ => ⟨S256x8192, .f32⟩
  | .local _ .vmem, ⟨8, _⟩ => ⟨S8192x64, .f32⟩
  | .local _ .vmem, ⟨9, _⟩ => ⟨S64x64, .f32⟩
  | .local _ .vmem, ⟨10, _⟩ => ⟨S1x64, .f32⟩
  | .local _ .vmem, ⟨11, _⟩ => ⟨S256x64, .f32⟩
  | .local _ .vmem, ⟨12, _⟩ => ⟨S256x64, .f32⟩
  | .local _ .vmem, ⟨13, _⟩ => ⟨S256x8192, .bf16⟩
  | .local _ .vmem, ⟨14, _⟩ => ⟨S256x8192, .bf16⟩
  | .local _ .vmem, ⟨15, _⟩ => ⟨S1024x8192, .bf16⟩
  | .local _ .vmem, ⟨16, _⟩ => ⟨S1024x8192, .bf16⟩
  | .local _ .vmem, ⟨17, _⟩ => ⟨S8192x64, .f32⟩
  | .local _ .vmem, ⟨18, _⟩ => ⟨S64x64, .f32⟩
  | .local _ .vmem, ⟨19, _⟩ => ⟨S1x64, .f32⟩
  | .local _ .vmem, ⟨20, _⟩ => ⟨S1024x64, .f32⟩
  | .local _ .vmem, ⟨21, _⟩ => ⟨S1024x64, .f32⟩
  | .local _ .vmem, ⟨22, _⟩ => ⟨S1024x8192, .bf16⟩
  | .local _ .vmem, ⟨23, _⟩ => ⟨S1024x8192, .bf16⟩
  | .local _ .vmem, ⟨24, _⟩ => ⟨S8192x64, .f32⟩
  | .local _ .vmem, ⟨25, _⟩ => ⟨S64x64, .f32⟩
  | .local _ .vmem, ⟨26, _⟩ => ⟨S1x64, .f32⟩
  | .local _ .vmem, ⟨27, _⟩ => ⟨S1024x64, .f32⟩
  | .local _ .vmem, ⟨28, _⟩ => ⟨S1024x64, .f32⟩
  | .local _ .vmem, ⟨29, _⟩ => ⟨S1024x8192, .bf16⟩
  | .local _ .vmem, ⟨30, _⟩ => ⟨S1024x8192, .bf16⟩
  | .local _ .vmem, ⟨31, _⟩ => ⟨S8192x64, .f32⟩
  | .local _ .vmem, ⟨32, _⟩ => ⟨S64x40, .f32⟩
  | .local _ .vmem, ⟨33, _⟩ => ⟨S1x40, .f32⟩
  | .local _ .vmem, ⟨34, _⟩ => ⟨S1024x40, .f32⟩
  | .local _ .vmem, ⟨35, _⟩ => ⟨S1024x40, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v10 : BitVec 32 := Scalar.muli arg0 c256_i32
  v10
def k1_off1 (i : grid1.Coords) : Fin 2 → Nat :=
  let arg0 : BitVec 32 := BitVec.ofNat 32 (i 0).val
  let c256_i32 : BitVec 32 := 256#32
  let v10 : BitVec 32 := Scalar.muli arg0 c256_i32
  let v11 : BitVec 32 := v10
  let v12 : Index := Scalar.indexCast v11
  let c0_8 : Index := 0#32
  ![v12.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x8192 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def k2_mult1 (i : grid2.Coords) : BitVec 32 :=
  let arg0 : BitVec 32 := BitVec.ofNat 32 (i 0).val
  let c1024_i32 : BitVec 32 := 1024#32
  let v9 : BitVec 32 := Scalar.muli arg0 c1024_i32
  v9
def k2_off1 (i : grid2.Coords) : Fin 2 → Nat :=
  let arg0 : BitVec 32 := BitVec.ofNat 32 (i 0).val
  let c1024_i32 : BitVec 32 := 1024#32
  let v9 : BitVec 32 := Scalar.muli arg0 c1024_i32
  let v10 : BitVec 32 := v9
  let v11 : Index := Scalar.indexCast v10
  let c0_6 : Index := 0#32
  ![v11.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def k3_mult1 (i : grid3.Coords) : BitVec 32 :=
  let arg0 : BitVec 32 := BitVec.ofNat 32 (i 0).val
  let c1024_i32 : BitVec 32 := 1024#32
  let v9 : BitVec 32 := Scalar.muli arg0 c1024_i32
  v9
def k3_off1 (i : grid3.Coords) : Fin 2 → Nat :=
  let arg0 : BitVec 32 := BitVec.ofNat 32 (i 0).val
  let c1024_i32 : BitVec 32 := 1024#32
  let v9 : BitVec 32 := Scalar.muli arg0 c1024_i32
  let v10 : BitVec 32 := v9
  let v11 : Index := Scalar.indexCast v10
  let c0_6 : Index := 0#32
  ![v11.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1024x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  h_S256x64 : 0 < S256x64.numel
  shapeCasts_S256x64_S256x64 : S256x64.ShapeCasts S256x64
  broadcasts_S1x64_S256x64 : S1x64.Broadcasts S256x64
  inb_S256x64_S256x64_0_0 : ∀ a, (![0, 0] : Fin 2 → Nat) a + S256x64.size a ≤ S256x64.size a
  slices_S3x64x64_S1x64x64_1_0_0 : S3x64x64.Slices ![1, 0, 0] S1x64x64
  slices_S3x64_S1x64_1_0 : S3x64.Slices ![1, 0] S1x64
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  shapeCasts_S1024x64_S1024x64 : S1024x64.ShapeCasts S1024x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  inb_S1024x40_S1024x40_0_0 : ∀ a, (![0, 0] : Fin 2 → Nat) a + S1024x40.size a ≤ S1024x40.size a
  h_S1024x40 : 0 < S1024x40.numel
  dot_S1024x1024_S1024x64_S1024x64_1_0_0_1_n_n_wf : DotDims.WF S1024x1024 S1024x64 S1024x64 [1] [0] [0] [1] [] []
  dot_S256x8192_S8192x64_S256x64_1_0_0_1_n_n_wf : DotDims.WF S256x8192 S8192x64 S256x64 [1] [0] [0] [1] [] []
  dot_S256x64_S64x64_S256x64_1_0_0_1_n_n_wf : DotDims.WF S256x64 S64x64 S256x64 [1] [0] [0] [1] [] []
  dot_S1024x8192_S8192x64_S1024x64_1_0_0_1_n_n_wf : DotDims.WF S1024x8192 S8192x64 S1024x64 [1] [0] [0] [1] [] []
  dot_S1024x64_S64x64_S1024x64_1_0_0_1_n_n_wf : DotDims.WF S1024x64 S64x64 S1024x64 [1] [0] [0] [1] [] []
  dot_S1024x64_S64x40_S1024x40_1_0_0_1_n_n_wf : DotDims.WF S1024x64 S64x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S8192x64.size a
  hwx1_4 : ∀ i : grid1.Coords, EltTy.bits .f32 = 32 ∨ (Rect.block (s := S8192x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x8192.size a ≤ S8192x8192.size a
  hwx1_5 : ∀ i : grid1.Coords, EltTy.bits .bf16 = 32 ∨ (Rect.block (s := S8192x8192) S256x8192.size (cc1_transform_5 i) (hinb1_5 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S8192x64.size a
  hwx2_4 : ∀ i : grid2.Coords, EltTy.bits .f32 = 32 ∨ (Rect.block (s := S8192x64) S1024x64.size (cc2_transform_4 i) (hinb2_4 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x64.size a ≤ S8192x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S8192x64.size a
  hwx3_4 : ∀ i : grid3.Coords, EltTy.bits .f32 = 32 ∨ (Rect.block (s := S8192x64) S1024x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .f32 = 32 ∨ (Rect.block (s := S8192x64) S8192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x40.size a ≤ S64x40.size a
  hwx4_2 : ∀ i : grid4.Coords, EltTy.bits .f32 = 32 ∨ (Rect.block (s := S64x40) S64x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x40.size a ≤ S8192x40.size a
  hwx4_4 : ∀ i : grid4.Coords, EltTy.bits .f32 = 32 ∨ (Rect.block (s := S8192x40) S1024x40.size (cc4_transform_4 i) (hinb4_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x40_S1024x40_1_0_0_1_n_n : DotDims S1024x64 S64x40 S1024x40 where
  lhsContracting := [1]
  rhsContracting := [0]
  lhsNonContracting := [0]
  rhsNonContracting := [1]
  lhsBatch := []
  rhsBatch := []
  wf := dot_S1024x64_S64x40_S1024x40_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S256x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S256x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_1) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7_1) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1024x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v7_1) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1024x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x64 : Shape := ⟨2, ![1024, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S8192x64 : Shape := ⟨2, ![8192, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S8192x40 : Shape := ⟨2, ![8192, 40]⟩
abbrev S1x40 : Shape := ⟨2, ![1, 40]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S1024x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x40, .f32⟩
  | .hbm, ⟨8, _⟩ => ⟨S40, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S1x64x64, .f32⟩
  | .hbm, ⟨14, _⟩ => ⟨S64x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S1x64x64, .f32⟩
  | .hbm, ⟨27, _⟩ => ⟨S64x64, .f32⟩
  | .hbm, ⟨28, _⟩ => ⟨S8192x64, .f32⟩
  | .hbm, ⟨29, _⟩ => ⟨S8192x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S1x64x64, .f32⟩
  | .hbm, ⟨40, _⟩ => ⟨S64x64, .f32⟩
  | .hbm, ⟨41, _⟩ => ⟨S8192x64, .f32⟩
  | .hbm, ⟨42, _⟩ => ⟨S8192x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x40, .f32⟩
  | .hbm, ⟨53, _⟩ => ⟨S8192x40, .f32⟩
  | .hbm, ⟨54, _⟩ => ⟨S1x40, .f32⟩
  | .hbm, ⟨55, _⟩ => ⟨S8192x40, .f32⟩
  | .hbm, ⟨56, _⟩ => ⟨S8192x40, .f32⟩
  | .hbm, ⟨57, _⟩ => ⟨S_, .f32⟩
  | .hbm, ⟨58, _⟩ => ⟨S8192x40, .f32⟩
  | .hbm, ⟨59, _⟩ => ⟨S8192x40, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_cst : Ref sig .tc := ⟨.hbm, 49, rfl⟩
abbrev main_call2_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call3_cst : Ref sig .tc := ⟨.hbm, 57, rfl⟩
abbrev main_call3_v0 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S8192x64 : S_.BroadcastsInDim S8192x64 (![] : Fin 0 → Fin S8192x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  bcast_S_S8192x40 : S_.BroadcastsInDim S8192x40 (![] : Fin 0 → Fin S8192x40.rank)
  dot_S8192x1024_S1024x64_S8192x64_1_0_0_1_n_n_wf : DotDims.WF S8192x1024 S1024x64 S8192x64 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x40_S8192x40_1_0_0_1_n_n_wf : DotDims.WF S8192x64 S64x40 S8192x40 [1] [0] [0] [1] [] []
  dot_S8192x8192_S8192x40_S8192x40_1_0_0_1_n_n_wf : DotDims.WF S8192x8192 S8192x40 S8192x40 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x40_S8192x40_1_0_0_1_n_n : DotDims S8192x64 S64x40 S8192x40 where
  lhsContracting := [1]
  rhsContracting := [0]
  lhsNonContracting := [0]
  rhsNonContracting := [1]
  lhsBatch := []
  rhsBatch := []
  wf := dot_S8192x64_S64x40_S8192x40_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf

class Facts : Prop extends Facts₀ where

variable [Facts]
-- ==== Proof.RefImports.lean ====
/-
  The reference's run and its stage-by-stage reads, gathered in one place for the modules that compare
  the two programs.
-/
import proofs.«104737_j52304111731095_2_alg».proof.Defs
import proofs.«104737_j52304111731095_2_alg».proof.Proof.Gen.ReferenceIdeal.Run
import proofs.«104737_j52304111731095_2_alg».proof.Proof.Gen.ReferenceIdeal.Read
-- ==== Proof.KernelRun.lean ====
/-
  The kernel's run at the exact values, with its result named.

  @main is five kernel regions among short stretches of host operations (slices and reshapes of the weights and
  biases). Every weakly fair execution terminates, and at the end every buffer the program does not scope holds the
  contents obtained by folding the segments' effects, in order, over the launch memory: a host stretch applies its
  operations; a region leaves its input arrays as entered and each output array at what its row tiles wrote back.
  Here that final contents is read at the result buffer (and at the nine arguments, which no segment writes).
-/
import proofs.«104737_j52304111731095_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the folded contents
    after the last region, and the argument arrays end as launched. -/
theorem run_result : θ_run defs (onTc (τ := τ) (main (F := F))) ⟨m, fun _ => 0, ρ⟩ (fun r => ∀ c : Dev nD,
      r.2.mem ((c.tc : Thread nD τ).loc main_v21) = W10 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v21 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunValue

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«104737_j52304111731095_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«104737_j52304111731095_2_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.LibMatmulAssoc.lean ====
/-
  Associativity of the matrix product, entry by entry, over the reals and over the extended reals.

  * `coe_sum`: the inclusion of `ℝ` in the extended reals commutes with finite sums.
  * `real_sum_mul_assoc`: one entry of `(a · x) · w = a · (x · w)` over `ℝ`, for a row `a`, a matrix `x`
    and a column `w` indexed by any two finite types: both sides are the double sum
    `∑ j, ∑ k, a j * x j k * w k` (distribute, exchange the two finite sums, reassociate each term).
  * `ereal_sum_mul_assoc`: the same entry over the extended reals when every entry of `a`, `x` and `w`
    is a real number; products and finite sums of reals are then computed in `ℝ`, where the law holds.

  Without finiteness the law fails on the extended reals: multiplication does not distribute over
  addition there, because `⊤ + ⊥` absorbs (it is `⊥`). Take two rows and one column, `a = (1, 1)`,
  `x = (⊤, ⊥)` and `w = (-1)`: then `(a · x) · w = (⊤ + ⊥) * (-1) = ⊥ * (-1) = ⊤`, while
  `a · (x · w) = ⊤ * (-1) + ⊥ * (-1) = ⊥ + ⊤ = ⊥`. The hypothesis that every entry is real excludes this.
-/
import Mathlib.Data.EReal.Operations
import Mathlib.Algebra.BigOperators.Ring.Finset
import Mathlib.Algebra.BigOperators.Group.Finset.Sigma
import Mathlib.Tactic.Ring

noncomputable section

open scoped BigOperators

namespace MatmulAssoc

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One entry of `(a · x) · w = a · (x · w)` over the reals, for a row `a`, a matrix `x` and a column `w`:
    both sides are `∑ j, ∑ k, a j * x j k * w k`. -/
theorem real_sum_mul_assoc {J K : Type} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => by ring

/-- The same entry over the extended reals, when every entry of `a`, `x` and `w` is a real number: products
    and finite sums of reals are computed in `ℝ`, where the law holds. -/
theorem ereal_sum_mul_assoc {J K : Type} [Fintype J] [Fintype K] (a : J → EReal) (x : J → K → EReal) (w : K → EReal)
    (ha : ∀ j, ∃ r : ℝ, a j = (r : EReal)) (hx : ∀ j k, ∃ r : ℝ, x j k = (r : EReal))
    (hw : ∀ k, ∃ r : ℝ, w k = (r : EReal)) :
    ∑ k, (∑ j, a j * x j k) * w k = ∑ j, a j * ∑ k, x j k * w k := by
  choose a' ha using ha
  choose x' hx using hx
  choose w' hw using hw
  simp only [ha, hx, hw, ← EReal.coe_mul, ← coe_sum]
  exact congrArg _ (real_sum_mul_assoc a' x' w')

end MatmulAssoc

end
-- ==== Proof.GcnSpec.lean ====
/-
  The network both programs compute, as functions on the extended reals, entry by entry.

  With x an n × k feature matrix, A an n × n adjacency matrix, and each bias kept as one row:
    * the input projection            fc x W b        = x · W + b
    * a hidden layer, in two orders   layerAgg A h W b = max((A · h) · W + b + h, 0)   (aggregate, then project)
                                      layerProj A h W b = max(A · (h · W) + b + h, 0)   (project, then aggregate)
    * the output layer, in two orders outAgg A h W b  = max((A · h) · W + b, 0),  outProj A h W b = max(A · (h · W) + b, 0)
  The two orders differ by the associativity of the matrix product, which holds entry by entry when every entry is
  a real number (it fails on the extended reals in general, where multiplication does not distribute over sums).
-/
import proofs.«104737_j52304111731095_2_alg».proof.Proof.LibExactProduct
import proofs.«104737_j52304111731095_2_alg».proof.Proof.LibMatmulAssoc

noncomputable section

namespace Gcn

open Idealize.ShloMosaic Idealize.ShloMosaic.ValueIdx ExactProduct

/-- An a × b matrix of extended reals, indexed as the programs index a rank-2 array. -/
abbrev Mat (a b : ℕ) : Type := (⟨2, ![a, b]⟩ : Shape).Idx → EReal

variable {n k d e : ℕ}

/-- The input projection x · W + b, the bias one row added to every row. -/
def fc (x : Mat n k) (w : Mat k d) (b : Mat 1 d) : Mat n d := proj x w b

/-- A hidden layer, aggregating first: max((A · h) · W + b + h, 0). -/
def layerAgg (A : Mat n n) (h : Mat n d) (w : Mat d d) (b : Mat 1 d) : Mat n d :=
  fun i => max (mm (mm A h) w i + b (ix2 (0 : Fin 1) (i 1)) + h i) 0

/-- A hidden layer, projecting first: max(A · (h · W) + b + h, 0). -/
def layerProj (A : Mat n n) (h : Mat n d) (w : Mat d d) (b : Mat 1 d) : Mat n d :=
  fun i => max (mm A (mm h w) i + b (ix2 (0 : Fin 1) (i 1)) + h i) 0

/-- The output layer, aggregating first: max((A · h) · W + b, 0). -/
def outAgg (A : Mat n n) (h : Mat n d) (w : Mat d e) (b : Mat 1 e) : Mat n e :=
  fun i => max (mm (mm A h) w i + b (ix2 (0 : Fin 1) (i 1))) 0

/-- The output layer, projecting first: max(A · (h · W) + b, 0). -/
def outProj (A : Mat n n) (h : Mat n d) (w : Mat d e) (b : Mat 1 e) : Mat n e :=
  fun i => max (mm A (mm h w) i + b (ix2 (0 : Fin 1) (i 1))) 0

/-- Every entry is a real number. -/
def IsReal {ι : Type} (f : ι → EReal) : Prop := ∀ i, ∃ r : ℝ, f i = (r : EReal)

/-- The whole network with every layer aggregating first (three hidden layers and the output layer). -/
def netAgg (x : Mat n k) (A : Mat n n) (w1 : Mat k d) (b1 : Mat 1 d) (wa : Mat d d) (ba : Mat 1 d) (wb : Mat d d) (bb : Mat 1 d)
    (wc : Mat d d) (bc : Mat 1 d) (wo : Mat d e) (bo : Mat 1 e) : Mat n e :=
  outAgg A (layerAgg A (layerAgg A (layerAgg A (fc x w1 b1) wa ba) wb bb) wc bc) wo bo

/-- The whole network with every layer projecting first. -/
def netProj (x : Mat n k) (A : Mat n n) (w1 : Mat k d) (b1 : Mat 1 d) (wa : Mat d d) (ba : Mat 1 d) (wb : Mat d d) (bb : Mat 1 d)
    (wc : Mat d d) (bc : Mat 1 d) (wo : Mat d e) (bo : Mat 1 e) : Mat n e :=
  outProj A (layerProj A (layerProj A (layerProj A (fc x w1 b1) wa ba) wb bb) wc bc) wo bo

end Gcn

end
-- ==== Proof.Region0.lean ====
/-
  The first region: the input projection h0 = x · W1 + b1, computed row tile by row tile.

  The grid has 8 points. At point t the body reads rows [1024 t, 1024 (t+1)) of the feature matrix x (8192 × 1024), the
  whole weight W1 (1024 × 64) and the bias as one row (1 × 64), and stores one 1024 × 64 tile: entry (r, c) of it is
  Σ_k x(1024 t + r, k) · W1(k, c) + b1(0, c). That tile is written back to rows [1024 t, 1024 (t+1)) of the output, so
  after the eight points the output array is x · W1 + b1, entry by entry: row r is written by point r / 1024.
-/
import proofs.«104737_j52304111731095_2_alg».proof.Proof.Gen.KernelIdeal.Frame
import proofs.«104737_j52304111731095_2_alg».proof.Proof.GcnSpec
import proofs.«104737_j52304111731095_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace R0

/-- Both offsets of a whole-block rectangle are zero. -/
theorem hz : (![0, 0] : Fin 2 → Nat) = fun _ => 0 := funext fun a => by fin_cases a <;> rfl

/-- The tile the body stores, at row r and column c: the row of the feature tile against the column of the weight,
    summed over the 1024 features, plus the bias at that column. The changes of float format are the identity on the
    extended reals, and the product into the zero accumulator is the plain sum. -/
theorem pay_apply (x : Vec Ideal S1024x1024 .f32) (w : Vec Ideal S1024x64 .f32) (b : Vec Ideal S1x64 .f32)
    (r : Fin 1024) (c : Fin 64) :
    k0_pay1 (F := Ideal) x w b (ix2 r c) = (∑ k : Fin 1024, x (ix2 r k) * w (ix2 k c)) + b (ix2 (0 : Fin 1) c) := by
  unfold k0_pay1
  show FloatOps.matmul dot_S1024x1024_S1024x64_S1024x64_1_0_0_1_n_n none _ _ _ (ix2 r c) + broadcastTo S1024x64 _ broadcasts_S1x64_S1024x64 (ix2 r c) = _
  refine congrArg₂ (· + ·) ?_ ?_
  · exact PlainMatmul.apply_zero (M := 1024) (K := 1024) (N := 64) (truncf .bf16 x bitsLt_bf16_f32) (truncf .bf16 w bitsLt_bf16_f32) r c
  · rw [shapeCast_self]
    exact broadcastTo_apply b broadcasts_S1x64_S1024x64 (ix2 r c) (ix2 (0 : Fin 1) c) (fun a => by match a with | ⟨0,_⟩ => rfl | ⟨1,_⟩ => rfl)

/-- A stored tile is the input projection of the whole arrays at the tile's rows: entry j of the tile, whose feature
    rows are rows of X (h0) and whose weight and bias are the whole W and B, is entry i of x · W + b when i has j's
    column and the row of X that j's row reads. -/
theorem tile_eq (X : Gcn.Mat 8192 1024) (W : Gcn.Mat 1024 64) (B : Gcn.Mat 1 64)
    (x0 : Vec Ideal S1024x1024 .f32) (x1 : Vec Ideal S1024x64 .f32) (x2 : Vec Ideal S1x64 .f32)
    (j : S1024x64.Idx) (i : S8192x64.Idx)
    (h0 : ∀ k : Fin 1024, x0 (ix2 (j 0) k) = X (ix2 (i 0) k))
    (h1 : x1 = W) (h2 : x2 = B) (hi : i 1 = j 1) :
    k0_pay1 (F := Ideal) x0 x1 x2 j = Gcn.fc X W B i := by
  obtain ⟨r, c, rfl⟩ : ∃ (r : Fin 1024) (c : Fin 64), j = ix2 r c := ⟨j 0, j 1, eq_ix2 j⟩
  rw [pay_apply]
  subst h1 h2
  show _ = (∑ k : Fin 1024, X (ix2 (i 0) k) * x1 (ix2 k (i 1))) + x2 (ix2 (0 : Fin 1) (i 1))
  rw [hi]
  exact congrArg (· + x2 (ix2 (0 : Fin 1) c)) (Finset.sum_congr rfl fun k _ => congrArg (· * x1 (ix2 k c)) (h0 k))

/-- The printed index maps over the grid: the feature window and the output window are at row block t, column block 0;
    the weight and the bias are block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x · W + b of the arrays as the region finds them. -/
theorem flushed_eq (c : Dev nD) (t : Fin cfg0.N) :
    (dat0 V c).flushed 3 t = ((cfg0.win 3).blk t).view.read (Elt Ideal) (Gcn.fc (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1024x64) hz, View.ld_unit_zero (S := S1x64) hz]
  obtain ⟨e0, e1, e2, e3, e4, e5, e6, e7⟩ := idx_facts t
  funext j
  show k0_pay1 (F := Ideal) (iblk0 V c 0 t) (iblk0 V c 1 t) (iblk0 V c 2 t) j
    = Gcn.fc (V c (Pipeline.arrRef spec0 0)) (V c (Pipeline.arrRef spec0 1)) (V c (Pipeline.arrRef spec0 2)) (((cfg0.win 3).blk t).view.emb j)
  refine tile_eq (V c (Pipeline.arrRef spec0 0)) (V c (Pipeline.arrRef spec0 1)) (V c (Pipeline.arrRef spec0 2))
    (iblk0 V c 0 t) (iblk0 V c 1 t) (iblk0 V c 2 t) j (((cfg0.win 3).blk t).view.emb j) (fun k => ?_) ?_ ?_ ?_
  · show V c (Pipeline.arrRef spec0 0) (((cfg0.win 0).blk t).view.emb (ix2 (j 0) k)) = V c (Pipeline.arrRef spec0 0) _
    refine congrArg (V c (Pipeline.arrRef spec0 0)) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · funext y
    show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 1024 + 1 * (y 0).val = (y 0).val; omega
    | ⟨1, _⟩ => show win0_1.index t (1 : Fin 2) * 64 + 1 * (y 1).val = (y 1).val; omega
  · funext y
    show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · apply Fin.ext
    show win0_3.index t (1 : Fin 2) * 64 + 1 * (j 1).val = (j 1).val
    omega

/-- An index of the output array is in point t's block iff each coordinate is in the block's range on its axis. -/
theorem mem_blk (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- Row r of the output lies in the block of point r / 1024, which is written back. -/
theorem cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 8 := N_0
  let t : Fin cfg0.N := ⟨(i 0).val / 1024, by rw [hN]; omega⟩
  obtain ⟨-, -, -, -, -, -, e6, e7⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

end R0

/-- The output array of the first region after all eight points is x · W1 + b1 of the arrays the region finds. -/
theorem final0 (c : Dev nD) :
    (dat0 V c).arrAt 3 cfg0.N = Gcn.fc (V c (Pipeline.arrRef spec0 0)) (V c (Pipeline.arrRef spec0 1)) (V c (Pipeline.arrRef spec0 2)) :=
  (dat0 V c).arrAt_eq_of_cover 3 (Gcn.fc (V c (Pipeline.arrRef spec0 0)) (V c (Pipeline.arrRef spec0 1)) (V c (Pipeline.arrRef spec0 2)))
    (fun t _ => R0.flushed_eq V c t) R0.cover

end Cert.KernelIdeal.RegionValue

end
-- ==== Proof.Region1.lean ====
/-
  Region 1 of the network: one hidden layer computed in 32 row tiles of 256 rows, with a second output that is a
  narrowed copy of the adjacency matrix.

  With A the 8192 × 8192 adjacency, h the 8192 × 64 features, W the 64 × 64 weights and b the bias kept as one row,
  grid point t reads rows 256·t … 256·t + 255 of A (its tile), the whole of h, W and b, and, from the whole block of h,
  once more the rows 256·t … 256·t + 255 (the residual term). It leaves
    * in the tile of the new features, at (r, q):  max(Σ_k2 (Σ_k A(256·t + r, k) · h(k, k2)) · W(k2, q) + b(0, q) + h(256·t + r, q), 0),
    * in the tile of the copy, at (r, k):  A(256·t + r, k)   (on the extended reals narrowing a value changes nothing).
  Tile t is written back to rows 256·t … 256·t + 255 of the output array, so row r of either output comes from point
  r / 256, the 32 tiles cover the arrays, and after the last point
    * the new features are the hidden layer  max((A · h) · W + b + h, 0)  of the region's input arrays,
    * the copy is A.
-/
import proofs.«104737_j52304111731095_2_alg».proof.Proof.Gen.KernelIdeal.Frame
import proofs.«104737_j52304111731095_2_alg».proof.Proof.GcnSpec
import proofs.«104737_j52304111731095_2_alg».proof.Proof.LibPlainMatmul
import Idealize.ShloMosaic.Lib.Pipeline.Value
import Idealize.ShloMosaic.Lib.ValueLayout
import Idealize.ShloMosaic.Lib.Tactic

set_option maxRecDepth 16384

noncomputable section
namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R1

variable {F : FTy → Type} [FloatOps F]

/-! ## What a point leaves in each output's tile -/

/-- The zero offsets, however spelt. -/
theorem hz : (![0, 0] : Fin 2 → Nat) = fun _ => 0 := funext fun a => by fin_cases a <;> rfl

/-- What a point leaves in the staging buffer of the adjacency copy: the narrowed adjacency tile it loaded. -/
theorem adjPiece (c : Dev nD) (i : grid1.Coords) (arg1 : Memref sig .tc .vmem S256x8192 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S256x64 .f32) (harg5 : arg5.IsWhole) (arg6 : Memref sig .tc .vmem S256x8192 .bf16) (harg6 : arg6.IsWhole)
    (x0 : Vec F S256x8192 .f32) (x1 : Vec F S8192x64 .f32) (x2 : Vec F S64x64 .f32) (x3 : Vec F S1x64 .f32) :
    out1_A_5 c i arg1 harg1 arg2 harg2 arg3 harg3 arg4 harg4 arg5 harg5 arg6 harg6 x0 x1 x2 x3 = k1_pay1 x0 := by
  unfold out1_A_5
  rw [View.read_writes_eq_canon _ _ _ (cover1_A_5 c i arg1 harg1 arg2 harg2 arg3 harg3 arg4 harg4 arg5 harg5 arg6 harg6 x0 x1 x2 x3)]
  unfold kernelRun1_A
  dsimp only
  rw [View.canon_unit_zero hz]
  simp only [View.readAt_eq_ld, harg1.read_unread, View.ld_unit_zero (S := S256x8192) hz]

/-- What a point leaves in the staging buffer of the new features: the layer's arithmetic of the adjacency tile, the
    whole feature block, the weights, the 256 rows of the feature block starting at the point's row offset, and the
    bias row. -/
theorem hPiece (c : Dev nD) (i : grid1.Coords) (arg1 : Memref sig .tc .vmem S256x8192 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S256x64 .f32) (harg5 : arg5.IsWhole) (arg6 : Memref sig .tc .vmem S256x8192 .bf16) (harg6 : arg6.IsWhole)
    (x0 : Vec F S256x8192 .f32) (x1 : Vec F S8192x64 .f32) (x2 : Vec F S64x64 .f32) (x3 : Vec F S1x64 .f32) :
    out1_A_4 c i arg1 harg1 arg2 harg2 arg3 harg3 arg4 harg4 arg5 harg5 arg6 harg6 x0 x1 x2 x3
      = k1_pay2 x0 x1 x2 (View.ld x1 (Rect.unit (s := S8192x64) (k1_off1 i) S256x64.size (k1_off1_inb i))) x3 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  rw [View.canon_unit_zero hz]
  simp only [View.readAt_eq_ld, harg1.read_unread, harg2.read_unread, harg3.read_unread, harg4.read_unread,
    View.ld_unit_zero (S := S256x8192) hz, View.ld_unit_zero (S := S8192x64) hz, View.ld_unit_zero (S := S64x64) hz,
    View.ld_unit_zero (S := S1x64) hz]

/-! ## The layer's arithmetic at an entry of a tile, on the extended reals -/

/-- A product of an M × K and a K × N block into the zero accumulator, at (r, c), whatever the precision asked for. -/
theorem mm_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant (F := Ideal) ⟨2, ![M, N]⟩ .f32 0x00000000#32) (ix2 r c)
      = ∑ k : Fin K, lhs (ix2 r k) * rhs (ix2 k c) := by
  subst hd
  exact PlainMatmul.apply_zero lhs rhs r c

/-- The layer's arithmetic at row r and column q of a tile: with T the adjacency tile, H the whole feature block, W the
    weights, R the tile's own rows of the features and b the bias row, it is
    max(Σ_k2 (Σ_k T(r, k) · H(k, k2)) · W(k2, q) + b(0, q) + R(r, q), 0). -/
theorem pay_apply (v0 : Vec Ideal S256x8192 .f32) (v3 : Vec Ideal S8192x64 .f32) (v7 : Vec Ideal S64x64 .f32)
    (v13 : Vec Ideal S256x64 .f32) (v15 : Vec Ideal S1x64 .f32) (r : Fin 256) (q : Fin 64) :
    (k1_pay2 v0 v3 v7 v13 v15 : S256x64.Idx → EReal) (ix2 r q)
      = max ((∑ k2 : Fin 64, (∑ k : Fin 8192, v0 (ix2 r k) * v3 (ix2 k k2)) * v7 (ix2 k2 q)) + v15 (ix2 (0 : Fin 1) q) + v13 (ix2 r q)) 0 := by
  unfold k1_pay2 k1_pay1
  simp only [shapeCast_self]
  rw [maximumf_apply, addf_apply, addf_apply, broadcast_apply, broadcastTo_1b_ab_apply,
    mm_zero_apply (M := 256) (K := 64) (N := 64) dot_S256x64_S64x64_S256x64_1_0_0_1_n_n rfl]
  refine congrArg₂ max (congrArg₂ (· + ·) (congrArg₂ (· + ·) (Finset.sum_congr rfl fun k2 _ => ?_) rfl) rfl) Ideal.ofBits_zero_f32
  rw [mm_zero_apply (M := 256) (K := 8192) (N := 64) dot_S256x8192_S8192x64_S256x64_1_0_0_1_n_n rfl]
  rfl

/-! ## Where the blocks sit in their arrays -/

/-- The index maps of the row-tiled windows, at each of the 32 points: tile `t` on the rows, 0 on the columns. -/
theorem idx_facts : ∀ t : Fin cfg1.N,
    win1_0.index t (0 : Fin 2) = t.val ∧ win1_0.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The row offset of the residual load, at each of the 32 points: 256 · t on the rows, 0 on the columns. -/
theorem off_facts : ∀ t : Fin cfg1.N, k1_off1 (grid1.coords t) (0 : Fin 2) = 256 * t.val ∧ k1_off1 (grid1.coords t) (1 : Fin 2) = 0 :=
  (by decide +kernel : ∀ t : Fin grid1.N, _)

/-- The index maps of the whole-array windows, at each of the 32 points: block (0, 0), the whole array. -/
theorem idx_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-! ## The copy of the adjacency -/

/-- What point `t` writes back to the copy is block `t` of the adjacency as the region finds it: on the extended reals
    the narrowed tile is the tile, and the tile and the copy's block are the same rows 256 · t … 256 · t + 255. -/
theorem flushed_adj (c : Dev nD) (t : Fin cfg1.N) :
    (dat1 V c).flushed 5 t = ((cfg1.win 5).blk t).view.read (Elt Ideal) (V c (Pipeline.arrRef spec1 0)) := by
  show (cfg1.win 5).cut (grid1.coords t) ((dat1 V c).after 5 t) = _
  rw [after1_5]
  have e := adjPiece (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t)
  unfold outsAt1
  dsimp only
  rw [e]
  obtain ⟨e0, e1, -, -, e4, e5⟩ := idx_facts t
  funext j
  show (iblk1 V c 0 t : S256x8192.Idx → EReal) j = V c (Pipeline.arrRef spec1 0) (((cfg1.win 5).blk t).view.emb j)
  unfold iblk1
  rw [View.read_apply]
  refine congrArg (V c (Pipeline.arrRef spec1 0)) (funext fun a => Fin.ext ?_)
  match a with
  | ⟨0, _⟩ => show win1_0.index t (0 : Fin 2) * 256 + 1 * (j 0).val = win1_5.index t (0 : Fin 2) * 256 + 1 * (j 0).val; rw [e0, e4]
  | ⟨1, _⟩ => show win1_0.index t (1 : Fin 2) * 8192 + 1 * (j 1).val = win1_5.index t (1 : Fin 2) * 8192 + 1 * (j 1).val; rw [e1, e5]

/-- An index of the adjacency copy is in point `t`'s block iff its row is one of the 256 rows of tile `t`. -/
theorem mem_blk_adj (t : Fin cfg1.N) (i : S8192x8192.Idx) :
    i ∈ ((cfg1.win 5).blk t).view.set ↔ ∀ a : Fin 2, win1_5.index t a * S256x8192.size a ≤ (i a).val ∧ (i a).val < win1_5.index t a * S256x8192.size a + S256x8192.size a := by
  show i ∈ ((View.whole main_v7_1).slice (win1_5.rect t)).set ↔ _
  rw [View.set_slice_whole, Rect.mem_set_unit]
  exact Iff.rfl

/-! ## The new features -/

/-- The hidden layer's specification at row R and column q, with the two products written out. -/
theorem layerAgg_apply {n d : ℕ} (A : Gcn.Mat n n) (h : Gcn.Mat n d) (w : Gcn.Mat d d) (b : Gcn.Mat 1 d) (R : Fin n) (q : Fin d) :
    Gcn.layerAgg A h w b (ix2 R q)
      = max ((∑ k2 : Fin d, (∑ k : Fin n, A (ix2 R k) * h (ix2 k k2)) * w (ix2 k2 q)) + b (ix2 (0 : Fin 1) q) + h (ix2 R q)) 0 := rfl

/-- The adjacency tile at point `t`, at (r, k), is the adjacency at row 256 · t + r and column k. -/
theorem blkA_apply (c : Dev nD) (t : Fin cfg1.N) (r : Fin 256) (k : Fin 8192) (R : Fin 8192) (hR : R.val = 256 * t.val + r.val) :
    (iblk1 V c 0 t : S256x8192.Idx → EReal) (ix2 r k) = (V c (Pipeline.arrRef spec1 0) : S8192x8192.Idx → EReal) (ix2 R k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 256 + 1 * r.val = R.val; rw [e0, hR]; omega
  | ⟨1, _⟩ => show win1_0.index t (1 : Fin 2) * 8192 + 1 * k.val = k.val; rw [e1]; omega

/-- The feature window's block is the whole feature array at every point. -/
theorem blkH_eq (c : Dev nD) (t : Fin cfg1.N) : (iblk1 V c 1 t : S8192x64.Idx → EReal) = V c (Pipeline.arrRef spec1 1) := by
  obtain ⟨e0, e1, -⟩ := idx_whole t
  funext j
  unfold iblk1
  rw [View.read_apply]
  refine congrArg (V c (Pipeline.arrRef spec1 1)) (funext fun a => Fin.ext ?_)
  match a with
  | ⟨0, _⟩ => show win1_1.index t (0 : Fin 2) * 8192 + 1 * (j 0).val = (j 0).val; rw [e0]; omega
  | ⟨1, _⟩ => show win1_1.index t (1 : Fin 2) * 64 + 1 * (j 1).val = (j 1).val; rw [e1]; omega

/-- The weight window's block is the whole weight array at every point. -/
theorem blkW_eq (c : Dev nD) (t : Fin cfg1.N) : (iblk1 V c 2 t : S64x64.Idx → EReal) = V c (Pipeline.arrRef spec1 2) := by
  obtain ⟨-, -, e0, e1, -⟩ := idx_whole t
  funext j
  unfold iblk1
  rw [View.read_apply]
  refine congrArg (V c (Pipeline.arrRef spec1 2)) (funext fun a => Fin.ext ?_)
  match a with
  | ⟨0, _⟩ => show win1_2.index t (0 : Fin 2) * 64 + 1 * (j 0).val = (j 0).val; rw [e0]; omega
  | ⟨1, _⟩ => show win1_2.index t (1 : Fin 2) * 64 + 1 * (j 1).val = (j 1).val; rw [e1]; omega

/-- The bias window's block is the whole bias row at every point. -/
theorem blkB_eq (c : Dev nD) (t : Fin cfg1.N) : (iblk1 V c 3 t : S1x64.Idx → EReal) = V c (Pipeline.arrRef spec1 3) := by
  obtain ⟨-, -, -, -, e0, e1⟩ := idx_whole t
  funext j
  unfold iblk1
  rw [View.read_apply]
  refine congrArg (V c (Pipeline.arrRef spec1 3)) (funext fun a => Fin.ext ?_)
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

/-- What point `t` writes back to the new features is block `t` of the hidden layer of the region's input arrays:
    rows 256 · t … 256 · t + 255, the residual rows read from the whole feature block at the same offset. -/
theorem flushed_h (c : Dev nD) (t : Fin cfg1.N) :
    (dat1 V c).flushed 4 t = ((cfg1.win 4).blk t).view.read (Elt Ideal)
      (Gcn.layerAgg (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  have e := hPiece (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t)
  unfold outsAt1
  dsimp only
  rw [e]
  obtain ⟨-, -, e2, e3, -, -⟩ := idx_facts t
  obtain ⟨o0, o1⟩ := off_facts t
  have ht : t.val < 32 := (N_1 : cfg1.N = 32) ▸ t.isLt
  funext j
  obtain ⟨r, q, rfl⟩ : ∃ (r : Fin 256) (q : Fin 64), j = ix2 r q := ⟨j 0, j 1, eq_ix2 j⟩
  have hR : 256 * t.val + r.val < 8192 := by have := r.isLt; omega
  have hemb : ((cfg1.win 4).blk t).view.emb (ix2 r q) = (ix2 (⟨256 * t.val + r.val, hR⟩ : Fin 8192) q : S8192x64.Idx) := by
    funext a; apply Fin.ext
    match a with
    | ⟨0, _⟩ => show win1_4.index t (0 : Fin 2) * 256 + 1 * r.val = 256 * t.val + r.val; rw [e2]; omega
    | ⟨1, _⟩ => show win1_4.index t (1 : Fin 2) * 64 + 1 * q.val = q.val; rw [e3]; omega
  rw [View.read_apply, hemb]
  refine (pay_apply _ _ _ _ _ r q).trans ?_
  refine Eq.trans ?_ (layerAgg_apply (n := 8192) (d := 64) (V c (Pipeline.arrRef spec1 0)) (V c (Pipeline.arrRef spec1 1))
    (V c (Pipeline.arrRef spec1 2)) (V c (Pipeline.arrRef spec1 3)) ⟨256 * t.val + r.val, hR⟩ q).symm
  rw [blkH_eq V c t, blkW_eq V c t, blkB_eq V c t]
  refine congrArg₂ max (congrArg₂ (· + ·) (congrArg₂ (· + ·) (Finset.sum_congr rfl fun k2 _ => congrArg (· * _)
    (Finset.sum_congr rfl fun k _ => congrArg (· * _) (blkA_apply V c t r k ⟨256 * t.val + r.val, hR⟩ rfl))) rfl) ?_) rfl
  show (V c (Pipeline.arrRef spec1 1) : S8192x64.Idx → EReal)
    ((Rect.unit (s := S8192x64) (k1_off1 (grid1.coords t)) S256x64.size (k1_off1_inb (grid1.coords t))).idx (ix2 r q)) = _
  refine congrArg (V c (Pipeline.arrRef spec1 1)) (funext fun a => Fin.ext ?_)
  match a with
  | ⟨0, _⟩ => show k1_off1 (grid1.coords t) (0 : Fin 2) + 1 * r.val = 256 * t.val + r.val; rw [o0]; omega
  | ⟨1, _⟩ => show k1_off1 (grid1.coords t) (1 : Fin 2) + 1 * q.val = q.val; rw [o1]; omega

/-- An index of the new features is in point `t`'s block iff its row is one of the 256 rows of tile `t`. -/
theorem mem_blk_h (t : Fin cfg1.N) (i : S8192x64.Idx) :
    i ∈ ((cfg1.win 4).blk t).view.set ↔ ∀ a : Fin 2, win1_4.index t a * S256x64.size a ≤ (i a).val ∧ (i a).val < win1_4.index t a * S256x64.size a + S256x64.size a := by
  show i ∈ ((View.whole main_v7_0).slice (win1_4.rect t)).set ↔ _
  rw [View.set_slice_whole, Rect.mem_set_unit]
  exact Iff.rfl

end R1

/-! ## The two output arrays after the last point -/

/-- Region 1's second output: the copy of the adjacency after all 32 points is the adjacency the region was entered
    with. Row r is written by point r / 256. -/
theorem final1_adj (c : Dev nD) :
    (dat1 V c).arrAt 5 cfg1.N = (V c (Pipeline.arrRef spec1 0) : S8192x8192.Idx → EReal) :=
  (dat1 V c).arrAt_eq_of_cover 5 (V c (Pipeline.arrRef spec1 0)) (fun t _ => R1.flushed_adj V c t) fun i => by
    have hi0 : (i 0).val < 8192 := (i 0).isLt
    have hi1 : (i 1).val < 8192 := (i 1).isLt
    have hN : cfg1.N = 32 := N_1
    refine ⟨⟨(i 0).val / 256, by rw [hN]; omega⟩, flush1_5 _, ?_⟩
    rw [R1.mem_blk_adj]
    obtain ⟨-, -, -, -, e4, e5⟩ := R1.idx_facts ⟨(i 0).val / 256, by rw [hN]; omega⟩
    intro a
    match a with
    | ⟨0, _⟩ => show win1_5.index _ (0 : Fin 2) * 256 ≤ (i 0).val ∧ (i 0).val < win1_5.index _ (0 : Fin 2) * 256 + 256; rw [e4]; dsimp only; omega
    | ⟨1, _⟩ => show win1_5.index _ (1 : Fin 2) * 8192 ≤ (i 1).val ∧ (i 1).val < win1_5.index _ (1 : Fin 2) * 8192 + 8192; rw [e5]; omega

/-- Region 1's first output: the new feature array after all 32 points is the hidden layer, aggregating first, of the
    region's adjacency, feature, weight and bias arrays. Row r is written by point r / 256. -/
theorem final1_h (c : Dev nD) :
    (dat1 V c).arrAt 4 cfg1.N = Gcn.layerAgg (V c (Pipeline.arrRef spec1 0)) (V c (Pipeline.arrRef spec1 1)) (V c (Pipeline.arrRef spec1 2)) (V c (Pipeline.arrRef spec1 3)) :=
  (dat1 V c).arrAt_eq_of_cover 4 _ (fun t _ => R1.flushed_h V c t) fun i => by
    have hi0 : (i 0).val < 8192 := (i 0).isLt
    have hi1 : (i 1).val < 64 := (i 1).isLt
    have hN : cfg1.N = 32 := N_1
    refine ⟨⟨(i 0).val / 256, by rw [hN]; omega⟩, flush1_4 _, ?_⟩
    rw [R1.mem_blk_h]
    obtain ⟨-, -, e2, e3, -, -⟩ := R1.idx_facts ⟨(i 0).val / 256, by rw [hN]; omega⟩
    intro a
    match a with
    | ⟨0, _⟩ => show win1_4.index _ (0 : Fin 2) * 256 ≤ (i 0).val ∧ (i 0).val < win1_4.index _ (0 : Fin 2) * 256 + 256; rw [e2]; dsimp only; omega
    | ⟨1, _⟩ => show win1_4.index _ (1 : Fin 2) * 64 ≤ (i 1).val ∧ (i 1).val < win1_4.index _ (1 : Fin 2) * 64 + 64; rw [e3]; omega

end Cert.KernelIdeal.RegionValue

end
-- ==== Proof.Region2.lean ====
/-
  The third kernel launch of the network (region 2 of the main function): one hidden graph-convolution layer,
  computed row tile by row tile.

  With A the 8192 × 8192 adjacency matrix, h the 8192 × 64 feature matrix, W a 64 × 64 weight matrix and b a bias
  row, grid point t (of 8) computes rows 1024·t … 1024·t + 1023 of

      max((A · h) · W + b + h, 0).

  Its body multiplies the adjacency rows of the tile by the whole of h, multiplies the result by W, adds the bias
  row to every row, adds rows 1024·t … of h themselves (the residual term, loaded from the whole h block at the row
  offset 1024·t), and takes the maximum with zero. At the extended reals a product into the zero accumulator is
  the plain sum over the contracted axis and a change of float format is the identity, so entry (r, c) of the tile
  is entry (1024·t + r, c) of Gcn.layerAgg A h W b. The eight tiles are disjoint bands of 1024 rows that cover the
  array (row r lies in the band r / 1024), so the array after the region is Gcn.layerAgg A h W b.
-/
import proofs.«104737_j52304111731095_2_alg».proof.Proof.Gen.KernelIdeal.Frame
import proofs.«104737_j52304111731095_2_alg».proof.Proof.GcnSpec
import proofs.«104737_j52304111731095_2_alg».proof.Proof.LibPlainMatmul
import Idealize.ShloMosaic.Lib.Pipeline.Value
import Idealize.ShloMosaic.Lib.ValueLayout
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace R2

open Idealize.ShloMosaic.ValueIdx

theorem hz : (![0, 0] : Fin 2 → Nat) = fun _ => 0 := funext fun a => by fin_cases a <;> rfl

/-! ## What the body leaves in the output tile, as one term of the blocks it loads -/

section Piece
variable {F : FTy → Type} [FloatOps F]

/-- The body's one store covers the output tile; its payload reads the adjacency tile x0, the whole feature block
    x1, the weights x2, the bias row x3, and rows of x1 at the point's row offset (the residual term). -/
theorem piece (c : Dev nD) (i : grid2.Coords) (arg1 : Memref sig .tc .vmem S1024x8192 .bf16) (harg1 : arg1.IsWhole) (arg2 : Memref sig .tc .vmem S8192x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole)
    (x0 : Vec F S1024x8192 .bf16) (x1 : Vec F S8192x64 .f32) (x2 : Vec F S64x64 .f32) (x3 : Vec F S1x64 .f32) :
    out2_A_4 c i arg1 harg1 arg2 harg2 arg3 harg3 arg4 harg4 arg5 harg5 x0 x1 x2 x3
      = k2_pay1 x1 x0 x2 (View.ld x1 (Rect.unit (s := S8192x64) (k2_off1 i) S1024x64.size (k2_off1_inb i))) x3 := by
  unfold out2_A_4
  rw [View.read_writes_eq_canon _ _ _ (cover2_A_4 c i arg1 harg1 arg2 harg2 arg3 harg3 arg4 harg4 arg5 harg5 x0 x1 x2 x3)]
  unfold kernelRun2_A
  dsimp only
  rw [View.canon_unit_zero hz]
  simp only [View.readAt_eq_ld, harg1.read_unread, harg2.read_unread, harg3.read_unread, harg4.read_unread,
    View.ld_unit_zero (S := S8192x64) hz, View.ld_unit_zero (S := S1024x8192) hz, View.ld_unit_zero (S := S64x64) hz,
    View.ld_unit_zero (S := S1x64) hz]

end Piece

/-! ## The payload at an entry, on the extended reals -/

/-- Entry (p, q) of the tile: (Σ_k' (Σ_k a(p, k) · h(k, k')) · w(k', q)) + b(0, q) + r(p, q), against zero. The two
    products accumulate into zero, so each is the plain sum over its contracted axis; the shape casts are between
    equal shapes and the change of float format is the identity. -/
theorem pay_apply (h : Vec Ideal S8192x64 .f32) (a : Vec Ideal S1024x8192 .bf16) (w : Vec Ideal S64x64 .f32)
    (r : Vec Ideal S1024x64 .f32) (b : Vec Ideal S1x64 .f32) (p : Fin 1024) (q : Fin 64) :
    k2_pay1 h a w r b (ix2 p q)
      = max ((∑ k' : Fin 64, (∑ k : Fin 8192, a (ix2 p k) * h (ix2 k k')) * w (ix2 k' q))
          + b (ix2 (0 : Fin 1) q) + r (ix2 p q)) 0 := by
  unfold k2_pay1
  simp only [shapeCast_self]
  rw [maximumf_apply, addf_apply, addf_apply, broadcast_apply, broadcastTo_1b_ab_apply]
  refine congrArg₂ max (congrArg (· + b (ix2 (0 : Fin 1) q) + r (ix2 p q)) ?_) Ideal.ofBits_zero_f32
  refine (PlainMatmul.apply_zero (M := 1024) (K := 64) (N := 64) (φ₁ := .f32) (φ₂ := .f32) _ w p q).trans
    (Finset.sum_congr rfl fun k' _ => ?_)
  exact congrArg (· * w (ix2 k' q))
    (PlainMatmul.apply_zero (M := 1024) (K := 8192) (N := 64) (φ₁ := .bf16) (φ₂ := .bf16) a h p k')

/-- When the adjacency tile a is rows 1024·n … of A and the residual rows r are rows 1024·n … of H, entry (p, q) of
    the tile is entry (1024·n + p, q) of the layer's value. -/
theorem block_value (A : Gcn.Mat 8192 8192) (H : Gcn.Mat 8192 64) (W : Gcn.Mat 64 64) (B : Gcn.Mat 1 64)
    (n : ℕ) (hn : n < 8) (a : Vec Ideal S1024x8192 .bf16) (r : Vec Ideal S1024x64 .f32)
    (ha : ∀ (p : Fin 1024) (k : Fin 8192), a (ix2 p k) = A (ix2 (⟨1024 * n + p.val, by omega⟩ : Fin 8192) k))
    (hr : ∀ (p : Fin 1024) (q : Fin 64), r (ix2 p q) = H (ix2 (⟨1024 * n + p.val, by omega⟩ : Fin 8192) q))
    (p : Fin 1024) (q : Fin 64) :
    k2_pay1 H a W r B (ix2 p q) = Gcn.layerAgg A H W B (ix2 (⟨1024 * n + p.val, by omega⟩ : Fin 8192) q) := by
  rw [pay_apply]
  simp only [ha, hr]
  rfl

/-! ## Where each block sits in its array -/

/-- The block indices over the eight grid points: the adjacency and output tiles are at block row t, column 0; the
    feature, weight and bias windows are at block (0, 0); the residual load's row offset is 1024·t, column 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ k2_off1 (grid2.coords t) (0 : Fin 2) = 1024 * t.val ∧ k2_off1 (grid2.coords t) (1 : Fin 2) = 0 :=
  (by decide +kernel : ∀ t : Fin grid2.N, _)

/-- The adjacency window's block at point t is rows 1024·t … 1024·t + 1023 of the adjacency array. -/
theorem adj_block (c : Dev nD) (t : Fin cfg2.N) (p : Fin 1024) (k : Fin 8192) (hp : 1024 * t.val + p.val < 8192) :
    (iblk2 V c 0 t : Vec Ideal S1024x8192 .bf16) (ix2 p k)
      = (V c (Pipeline.arrRef spec2 0) : Gcn.Mat 8192 8192) (ix2 (⟨1024 * t.val + p.val, hp⟩ : Fin 8192) k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * p.val = 1024 * t.val + p.val; rw [e0]; omega
  | ⟨1, _⟩ => show win2_0.index t (1 : Fin 2) * 8192 + 1 * k.val = k.val; rw [e1]; omega

/-- The feature window's block is the whole feature array at every point. -/
theorem feat_block (c : Dev nD) (t : Fin cfg2.N) :
    (iblk2 V c 1 t : Vec Ideal S8192x64 .f32) = (V c (Pipeline.arrRef spec2 1) : Gcn.Mat 8192 64) := by
  obtain ⟨-, -, e0, e1, -⟩ := idx_facts t
  funext y
  unfold iblk2
  rw [View.read_apply]
  show V c (Pipeline.arrRef spec2 1) _ = V c (Pipeline.arrRef spec2 1) y
  congr 1
  funext a
  apply Fin.ext
  match a with
  | ⟨0, _⟩ => show win2_1.index t (0 : Fin 2) * 8192 + 1 * (y 0).val = (y 0).val; rw [e0]; omega
  | ⟨1, _⟩ => show win2_1.index t (1 : Fin 2) * 64 + 1 * (y 1).val = (y 1).val; rw [e1]; omega

/-- The weight window's block is the whole weight matrix at every point. -/
theorem weight_block (c : Dev nD) (t : Fin cfg2.N) :
    (iblk2 V c 2 t : Vec Ideal S64x64 .f32) = (V c (Pipeline.arrRef spec2 2) : Gcn.Mat 64 64) := by
  obtain ⟨-, -, -, -, e0, e1, -⟩ := idx_facts t
  funext y
  unfold iblk2
  rw [View.read_apply]
  show V c (Pipeline.arrRef spec2 2) _ = V c (Pipeline.arrRef spec2 2) y
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The bias window's block is the whole bias row at every point. -/
theorem bias_block (c : Dev nD) (t : Fin cfg2.N) :
    (iblk2 V c 3 t : Vec Ideal S1x64 .f32) = (V c (Pipeline.arrRef spec2 3) : Gcn.Mat 1 64) := by
  obtain ⟨-, -, -, -, -, -, e0, e1, -⟩ := idx_facts t
  funext y
  unfold iblk2
  rw [View.read_apply]
  show V c (Pipeline.arrRef spec2 3) _ = V c (Pipeline.arrRef spec2 3) y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The residual load at point t reads rows 1024·t … 1024·t + 1023 of the feature array. -/
theorem residual_rows (H : Gcn.Mat 8192 64) (t : Fin cfg2.N) (p : Fin 1024) (q : Fin 64) (hp : 1024 * t.val + p.val < 8192) :
    View.ld (Val := Elt Ideal) (e' := .f32) H (Rect.unit (s := S8192x64) (k2_off1 (grid2.coords t)) S1024x64.size (k2_off1_inb (grid2.coords t))) (ix2 p q)
      = H (ix2 (⟨1024 * t.val + p.val, hp⟩ : Fin 8192) q) := by
  obtain ⟨-, -, -, -, -, -, -, -, -, -, e0, e1⟩ := idx_facts t
  show H _ = H _
  congr 1
  funext a
  apply Fin.ext
  match a with
  | ⟨0, _⟩ => show k2_off1 (grid2.coords t) (0 : Fin 2) + 1 * p.val = 1024 * t.val + p.val; rw [e0]; omega
  | ⟨1, _⟩ => show k2_off1 (grid2.coords t) (1 : Fin 2) + 1 * q.val = q.val; rw [e1]; omega

/-! ## From the tiles to the array -/

/-- What point t writes back is block t of the layer's value on the arrays as the region finds them. -/
theorem flushed_eq (c : Dev nD) (t : Fin cfg2.N) :
    (dat2 V c).flushed 4 t = ((cfg2.win 4).blk t).view.read (Elt Ideal)
      (Gcn.layerAgg (V c (Pipeline.arrRef spec2 0)) (V c (Pipeline.arrRef spec2 1)) (V c (Pipeline.arrRef spec2 2))
        (V c (Pipeline.arrRef spec2 3))) := by
  have hN : cfg2.N = 8 := N_2
  have ht : t.val < 8 := hN ▸ t.isLt
  obtain ⟨-, -, -, -, -, -, -, -, e0, e1, -⟩ := idx_facts t
  show (cfg2.win 4).cut (grid2.coords t) ((dat2 V c).after 4 t) = _
  rw [after2_4]
  unfold outsAt2
  rw [piece, feat_block, weight_block, bias_block]
  refine funext fun (j : S1024x64.Idx) => ?_
  obtain ⟨p, q, rfl⟩ : ∃ (p : Fin 1024) (q : Fin 64), j = ix2 p q := ⟨j 0, j 1, eq_ix2 j⟩
  have hp : 1024 * t.val + p.val < 8192 := by have := p.isLt; omega
  rw [View.read_apply]
  refine (block_value (V c (Pipeline.arrRef spec2 0)) (V c (Pipeline.arrRef spec2 1)) (V c (Pipeline.arrRef spec2 2))
    (V c (Pipeline.arrRef spec2 3)) t.val ht (iblk2 V c 0 t) _
    (fun p k => adj_block V c t p k (by have := p.isLt; omega))
    (fun p q => residual_rows (V c (Pipeline.arrRef spec2 1)) t p q (by have := p.isLt; omega)) p q).trans ?_
  show Gcn.layerAgg _ _ _ _ _ = Gcn.layerAgg _ _ _ _ _
  congr 1
  funext a
  apply Fin.ext
  match a with
  | ⟨0, _⟩ => show 1024 * t.val + p.val = win2_4.index t (0 : Fin 2) * 1024 + 1 * p.val; rw [e0]; omega
  | ⟨1, _⟩ => show q.val = win2_4.index t (1 : Fin 2) * 64 + 1 * q.val; rw [e1]; omega

/-- An index of the feature array is in point t's block iff each coordinate is in the block's range on its axis. -/
theorem mem_blk (t : Fin cfg2.N) (i : S8192x64.Idx) :
    i ∈ ((cfg2.win 4).blk t).view.set ↔ ∀ a : Fin 2, win2_4.index t a * S1024x64.size a ≤ (i a).val
      ∧ (i a).val < win2_4.index t a * S1024x64.size a + S1024x64.size a := by
  show i ∈ ((View.whole main_v13).slice (win2_4.rect t)).set ↔ _
  rw [View.set_slice_whole, Rect.mem_set_unit]
  exact Iff.rfl

/-- Row r of the feature array is in the block of the point r / 1024, and every point writes its block back. -/
theorem cover (i : S8192x64.Idx) : ∃ t : Fin cfg2.N, (cfg2.win 4).flush t = true ∧ i ∈ ((cfg2.win 4).blk t).view.set := by
  have hN : cfg2.N = 8 := N_2
  have h0 : (i 0).val < 8192 := (i 0).isLt
  have h1 : (i 1).val < 64 := (i 1).isLt
  refine ⟨⟨(i 0).val / 1024, by rw [hN]; omega⟩, flush2_4 _, ?_⟩
  obtain ⟨-, -, -, -, -, -, -, -, e0, e1, -⟩ := idx_facts ⟨(i 0).val / 1024, by rw [hN]; omega⟩
  rw [mem_blk]
  intro a
  match a with
  | ⟨0, _⟩ =>
    show win2_4.index _ (0 : Fin 2) * 1024 ≤ (i 0).val ∧ (i 0).val < win2_4.index _ (0 : Fin 2) * 1024 + 1024
    rw [e0]; dsimp only; omega
  | ⟨1, _⟩ =>
    show win2_4.index _ (1 : Fin 2) * 64 ≤ (i 1).val ∧ (i 1).val < win2_4.index _ (1 : Fin 2) * 64 + 64
    rw [e1]; omega

end R2

/-- The feature array after region 2: one hidden layer, aggregating first, of the arrays the region finds. -/
theorem final2 (c : Dev nD) :
    (dat2 V c).arrAt 4 cfg2.N = Gcn.layerAgg (V c (Pipeline.arrRef spec2 0)) (V c (Pipeline.arrRef spec2 1)) (V c (Pipeline.arrRef spec2 2)) (V c (Pipeline.arrRef spec2 3)) :=
  (dat2 V c).arrAt_eq_of_cover 4 _ (fun t _ => R2.flushed_eq V c t) R2.cover

end Cert.KernelIdeal.RegionValue

end
-- ==== Proof.Region3.lean ====
/-
  The fourth kernel launch of the network (region 3 of the main function): one hidden graph-convolution layer,
  computed row tile by row tile.

  With A the 8192 × 8192 adjacency matrix, h the 8192 × 64 feature matrix, W a 64 × 64 weight matrix and b a bias
  row, grid point t (of 8) computes rows 1024·t … 1024·t + 1023 of

      max((A · h) · W + b + h, 0).

  Its body multiplies the adjacency rows of the tile by the whole of h, multiplies the result by W, adds the bias
  row to every row, adds rows 1024·t … of h themselves (the residual term, loaded from the whole h block at the row
  offset 1024·t), and takes the maximum with zero. At the extended reals a product into the zero accumulator is
  the plain sum over the contracted axis and a change of float format is the identity, so entry (r, c) of the tile
  is entry (1024·t + r, c) of Gcn.layerAgg A h W b. The eight tiles are disjoint bands of 1024 rows that cover the
  array (row r lies in the band r / 1024), so the array after the region is Gcn.layerAgg A h W b.
-/
import proofs.«104737_j52304111731095_2_alg».proof.Proof.Gen.KernelIdeal.Frame
import proofs.«104737_j52304111731095_2_alg».proof.Proof.GcnSpec
import proofs.«104737_j52304111731095_2_alg».proof.Proof.LibPlainMatmul
import Idealize.ShloMosaic.Lib.Pipeline.Value
import Idealize.ShloMosaic.Lib.ValueLayout
import Idealize.ShloMosaic.Lib.Tactic

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace R3

open Idealize.ShloMosaic.ValueIdx

theorem hz : (![0, 0] : Fin 2 → Nat) = fun _ => 0 := funext fun a => by fin_cases a <;> rfl

/-! ## What the body leaves in the output tile, as one term of the blocks it loads -/

section Piece
variable {F : FTy → Type} [FloatOps F]

/-- The body's one store covers the output tile; its payload reads the adjacency tile x0, the whole feature block
    x1, the weights x2, the bias row x3, and rows of x1 at the point's row offset (the residual term). -/
theorem piece (c : Dev nD) (i : grid3.Coords) (arg1 : Memref sig .tc .vmem S1024x8192 .bf16) (harg1 : arg1.IsWhole) (arg2 : Memref sig .tc .vmem S8192x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1024x64 .f32) (harg5 : arg5.IsWhole)
    (x0 : Vec F S1024x8192 .bf16) (x1 : Vec F S8192x64 .f32) (x2 : Vec F S64x64 .f32) (x3 : Vec F S1x64 .f32) :
    out3_A_4 c i arg1 harg1 arg2 harg2 arg3 harg3 arg4 harg4 arg5 harg5 x0 x1 x2 x3
      = k3_pay1 x1 x0 x2 (View.ld x1 (Rect.unit (s := S8192x64) (k3_off1 i) S1024x64.size (k3_off1_inb i))) x3 := by
  unfold out3_A_4
  rw [View.read_writes_eq_canon _ _ _ (cover3_A_4 c i arg1 harg1 arg2 harg2 arg3 harg3 arg4 harg4 arg5 harg5 x0 x1 x2 x3)]
  unfold kernelRun3_A
  dsimp only
  rw [View.canon_unit_zero hz]
  simp only [View.readAt_eq_ld, harg1.read_unread, harg2.read_unread, harg3.read_unread, harg4.read_unread,
    View.ld_unit_zero (S := S8192x64) hz, View.ld_unit_zero (S := S1024x8192) hz, View.ld_unit_zero (S := S64x64) hz,
    View.ld_unit_zero (S := S1x64) hz]

end Piece

/-! ## The payload at an entry, on the extended reals -/

/-- Entry (p, q) of the tile: (Σ_k' (Σ_k a(p, k) · h(k, k')) · w(k', q)) + b(0, q) + r(p, q), against zero. The two
    products accumulate into zero, so each is the plain sum over its contracted axis; the shape casts are between
    equal shapes and the change of float format is the identity. -/
theorem pay_apply (h : Vec Ideal S8192x64 .f32) (a : Vec Ideal S1024x8192 .bf16) (w : Vec Ideal S64x64 .f32)
    (r : Vec Ideal S1024x64 .f32) (b : Vec Ideal S1x64 .f32) (p : Fin 1024) (q : Fin 64) :
    k3_pay1 h a w r b (ix2 p q)
      = max ((∑ k' : Fin 64, (∑ k : Fin 8192, a (ix2 p k) * h (ix2 k k')) * w (ix2 k' q))
          + b (ix2 (0 : Fin 1) q) + r (ix2 p q)) 0 := by
  unfold k3_pay1
  simp only [shapeCast_self]
  rw [maximumf_apply, addf_apply, addf_apply, broadcast_apply, broadcastTo_1b_ab_apply]
  refine congrArg₂ max (congrArg (· + b (ix2 (0 : Fin 1) q) + r (ix2 p q)) ?_) Ideal.ofBits_zero_f32
  refine (PlainMatmul.apply_zero (M := 1024) (K := 64) (N := 64) (φ₁ := .f32) (φ₂ := .f32) _ w p q).trans
    (Finset.sum_congr rfl fun k' _ => ?_)
  exact congrArg (· * w (ix2 k' q))
    (PlainMatmul.apply_zero (M := 1024) (K := 8192) (N := 64) (φ₁ := .bf16) (φ₂ := .bf16) a h p k')

/-- When the adjacency tile a is rows 1024·n … of A and the residual rows r are rows 1024·n … of H, entry (p, q) of
    the tile is entry (1024·n + p, q) of the layer's value. -/
theorem block_value (A : Gcn.Mat 8192 8192) (H : Gcn.Mat 8192 64) (W : Gcn.Mat 64 64) (B : Gcn.Mat 1 64)
    (n : ℕ) (hn : n < 8) (a : Vec Ideal S1024x8192 .bf16) (r : Vec Ideal S1024x64 .f32)
    (ha : ∀ (p : Fin 1024) (k : Fin 8192), a (ix2 p k) = A (ix2 (⟨1024 * n + p.val, by omega⟩ : Fin 8192) k))
    (hr : ∀ (p : Fin 1024) (q : Fin 64), r (ix2 p q) = H (ix2 (⟨1024 * n + p.val, by omega⟩ : Fin 8192) q))
    (p : Fin 1024) (q : Fin 64) :
    k3_pay1 H a W r B (ix2 p q) = Gcn.layerAgg A H W B (ix2 (⟨1024 * n + p.val, by omega⟩ : Fin 8192) q) := by
  rw [pay_apply]
  simp only [ha, hr]
  rfl

/-! ## Where each block sits in its array -/

/-- The block indices over the eight grid points: the adjacency and output tiles are at block row t, column 0; the
    feature, weight and bias windows are at block (0, 0); the residual load's row offset is 1024·t, column 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ k3_off1 (grid3.coords t) (0 : Fin 2) = 1024 * t.val ∧ k3_off1 (grid3.coords t) (1 : Fin 2) = 0 :=
  (by decide +kernel : ∀ t : Fin grid3.N, _)

/-- The adjacency window's block at point t is rows 1024·t … 1024·t + 1023 of the adjacency array. -/
theorem adj_block (c : Dev nD) (t : Fin cfg3.N) (p : Fin 1024) (k : Fin 8192) (hp : 1024 * t.val + p.val < 8192) :
    (iblk3 V c 0 t : Vec Ideal S1024x8192 .bf16) (ix2 p k)
      = (V c (Pipeline.arrRef spec3 0) : Gcn.Mat 8192 8192) (ix2 (⟨1024 * t.val + p.val, hp⟩ : Fin 8192) k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 1024 + 1 * p.val = 1024 * t.val + p.val; rw [e0]; omega
  | ⟨1, _⟩ => show win3_0.index t (1 : Fin 2) * 8192 + 1 * k.val = k.val; rw [e1]; omega

/-- The feature window's block is the whole feature array at every point. -/
theorem feat_block (c : Dev nD) (t : Fin cfg3.N) :
    (iblk3 V c 1 t : Vec Ideal S8192x64 .f32) = (V c (Pipeline.arrRef spec3 1) : Gcn.Mat 8192 64) := by
  obtain ⟨-, -, e0, e1, -⟩ := idx_facts t
  funext y
  unfold iblk3
  rw [View.read_apply]
  show V c (Pipeline.arrRef spec3 1) _ = V c (Pipeline.arrRef spec3 1) y
  congr 1
  funext a
  apply Fin.ext
  match a with
  | ⟨0, _⟩ => show win3_1.index t (0 : Fin 2) * 8192 + 1 * (y 0).val = (y 0).val; rw [e0]; omega
  | ⟨1, _⟩ => show win3_1.index t (1 : Fin 2) * 64 + 1 * (y 1).val = (y 1).val; rw [e1]; omega

/-- The weight window's block is the whole weight matrix at every point. -/
theorem weight_block (c : Dev nD) (t : Fin cfg3.N) :
    (iblk3 V c 2 t : Vec Ideal S64x64 .f32) = (V c (Pipeline.arrRef spec3 2) : Gcn.Mat 64 64) := by
  obtain ⟨-, -, -, -, e0, e1, -⟩ := idx_facts t
  funext y
  unfold iblk3
  rw [View.read_apply]
  show V c (Pipeline.arrRef spec3 2) _ = V c (Pipeline.arrRef spec3 2) y
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The bias window's block is the whole bias row at every point. -/
theorem bias_block (c : Dev nD) (t : Fin cfg3.N) :
    (iblk3 V c 3 t : Vec Ideal S1x64 .f32) = (V c (Pipeline.arrRef spec3 3) : Gcn.Mat 1 64) := by
  obtain ⟨-, -, -, -, -, -, e0, e1, -⟩ := idx_facts t
  funext y
  unfold iblk3
  rw [View.read_apply]
  show V c (Pipeline.arrRef spec3 3) _ = V c (Pipeline.arrRef spec3 3) y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- The residual load at point t reads rows 1024·t … 1024·t + 1023 of the feature array. -/
theorem residual_rows (H : Gcn.Mat 8192 64) (t : Fin cfg3.N) (p : Fin 1024) (q : Fin 64) (hp : 1024 * t.val + p.val < 8192) :
    View.ld (Val := Elt Ideal) (e' := .f32) H (Rect.unit (s := S8192x64) (k3_off1 (grid3.coords t)) S1024x64.size (k3_off1_inb (grid3.coords t))) (ix2 p q)
      = H (ix2 (⟨1024 * t.val + p.val, hp⟩ : Fin 8192) q) := by
  obtain ⟨-, -, -, -, -, -, -, -, -, -, e0, e1⟩ := idx_facts t
  show H _ = H _
  congr 1
  funext a
  apply Fin.ext
  match a with
  | ⟨0, _⟩ => show k3_off1 (grid3.coords t) (0 : Fin 2) + 1 * p.val = 1024 * t.val + p.val; rw [e0]; omega
  | ⟨1, _⟩ => show k3_off1 (grid3.coords t) (1 : Fin 2) + 1 * q.val = q.val; rw [e1]; omega

/-! ## From the tiles to the array -/

/-- What point t writes back is block t of the layer's value on the arrays as the region finds them. -/
theorem flushed_eq (c : Dev nD) (t : Fin cfg3.N) :
    (dat3 V c).flushed 4 t = ((cfg3.win 4).blk t).view.read (Elt Ideal)
      (Gcn.layerAgg (V c (Pipeline.arrRef spec3 0)) (V c (Pipeline.arrRef spec3 1)) (V c (Pipeline.arrRef spec3 2))
        (V c (Pipeline.arrRef spec3 3))) := by
  have hN : cfg3.N = 8 := N_3
  have ht : t.val < 8 := hN ▸ t.isLt
  obtain ⟨-, -, -, -, -, -, -, -, e0, e1, -⟩ := idx_facts t
  show (cfg3.win 4).cut (grid3.coords t) ((dat3 V c).after 4 t) = _
  rw [after3_4]
  unfold outsAt3
  rw [piece, feat_block, weight_block, bias_block]
  refine funext fun (j : S1024x64.Idx) => ?_
  obtain ⟨p, q, rfl⟩ : ∃ (p : Fin 1024) (q : Fin 64), j = ix2 p q := ⟨j 0, j 1, eq_ix2 j⟩
  have hp : 1024 * t.val + p.val < 8192 := by have := p.isLt; omega
  rw [View.read_apply]
  refine (block_value (V c (Pipeline.arrRef spec3 0)) (V c (Pipeline.arrRef spec3 1)) (V c (Pipeline.arrRef spec3 2))
    (V c (Pipeline.arrRef spec3 3)) t.val ht (iblk3 V c 0 t) _
    (fun p k => adj_block V c t p k (by have := p.isLt; omega))
    (fun p q => residual_rows (V c (Pipeline.arrRef spec3 1)) t p q (by have := p.isLt; omega)) p q).trans ?_
  show Gcn.layerAgg _ _ _ _ _ = Gcn.layerAgg _ _ _ _ _
  congr 1
  funext a
  apply Fin.ext
  match a with
  | ⟨0, _⟩ => show 1024 * t.val + p.val = win3_4.index t (0 : Fin 2) * 1024 + 1 * p.val; rw [e0]; omega
  | ⟨1, _⟩ => show q.val = win3_4.index t (1 : Fin 2) * 64 + 1 * q.val; rw [e1]; omega

/-- An index of the feature array is in point t's block iff each coordinate is in the block's range on its axis. -/
theorem mem_blk (t : Fin cfg3.N) (i : S8192x64.Idx) :
    i ∈ ((cfg3.win 4).blk t).view.set ↔ ∀ a : Fin 2, win3_4.index t a * S1024x64.size a ≤ (i a).val
      ∧ (i a).val < win3_4.index t a * S1024x64.size a + S1024x64.size a := by
  show i ∈ ((View.whole main_v19).slice (win3_4.rect t)).set ↔ _
  rw [View.set_slice_whole, Rect.mem_set_unit]
  exact Iff.rfl

/-- Row r of the feature array is in the block of the point r / 1024, and every point writes its block back. -/
theorem cover (i : S8192x64.Idx) : ∃ t : Fin cfg3.N, (cfg3.win 4).flush t = true ∧ i ∈ ((cfg3.win 4).blk t).view.set := by
  have hN : cfg3.N = 8 := N_3
  have h0 : (i 0).val < 8192 := (i 0).isLt
  have h1 : (i 1).val < 64 := (i 1).isLt
  refine ⟨⟨(i 0).val / 1024, by rw [hN]; omega⟩, flush3_4 _, ?_⟩
  obtain ⟨-, -, -, -, -, -, -, -, e0, e1, -⟩ := idx_facts ⟨(i 0).val / 1024, by rw [hN]; omega⟩
  rw [mem_blk]
  intro a
  match a with
  | ⟨0, _⟩ =>
    show win3_4.index _ (0 : Fin 2) * 1024 ≤ (i 0).val ∧ (i 0).val < win3_4.index _ (0 : Fin 2) * 1024 + 1024
    rw [e0]; dsimp only; omega
  | ⟨1, _⟩ =>
    show win3_4.index _ (1 : Fin 2) * 64 ≤ (i 1).val ∧ (i 1).val < win3_4.index _ (1 : Fin 2) * 64 + 64
    rw [e1]; omega

end R3

/-- The feature array after region 3: one hidden layer, aggregating first, of the arrays the region finds. -/
theorem final3 (c : Dev nD) :
    (dat3 V c).arrAt 4 cfg3.N = Gcn.layerAgg (V c (Pipeline.arrRef spec3 0)) (V c (Pipeline.arrRef spec3 1)) (V c (Pipeline.arrRef spec3 2)) (V c (Pipeline.arrRef spec3 3)) :=
  (dat3 V c).arrAt_eq_of_cover 4 _ (fun t _ => R3.flushed_eq V c t) R3.cover

end Cert.KernelIdeal.RegionValue

end
-- ==== Proof.Region4.lean ====
/-
  The last region: the output layer out = max((A · h) · Wo + bo, 0), computed row tile by row tile.

  The grid has 8 points. At point t the body reads rows [1024 t, 1024 (t+1)) of the adjacency matrix A (8192 × 8192),
  the whole h (8192 × 64), the whole weight Wo (64 × 40) and the bias as one row (1 × 40), and stores one 1024 × 40
  tile: entry (r, c) of it is max(Σ_j (Σ_k A(1024 t + r, k) · h(k, j)) · Wo(j, c) + bo(0, c), 0) — the rows of A are
  aggregated against h first, the 64 aggregated features are projected by Wo afterwards. That tile is written back to
  rows [1024 t, 1024 (t+1)) of the output, so after the eight points the output array is the output layer in the
  aggregate-then-project order, entry by entry: row r is written by point r / 1024.
-/
import proofs.«104737_j52304111731095_2_alg».proof.Proof.Gen.KernelIdeal.Frame
import proofs.«104737_j52304111731095_2_alg».proof.Proof.GcnSpec
import proofs.«104737_j52304111731095_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace R4

/-- Both offsets of a whole-block rectangle are zero. -/
theorem hz : (![0, 0] : Fin 2 → Nat) = fun _ => 0 := funext fun a => by fin_cases a <;> rfl

/-- A plain matrix product into the zero accumulator, at (r, c), is Σ_k lhs(r, k) · rhs(k, c), whatever precision the
    operation asks for: on the extended reals the precision is not read. -/
theorem matmul_zero {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_apply (DotDims.plain M K N) prec lhs rhs _ (ix2 r c)).trans
    ((Ideal.matmul_apply (DotDims.plain M K N) none lhs rhs _ (ix2 r c)).symm.trans (PlainMatmul.apply_zero lhs rhs r c))

/-- The tile the body stores, at row r and column c: the row of the adjacency tile against the whole h gives 64
    aggregated features, those against the column of the weight are summed, the bias at that column is added, and the
    result is cut below at zero. The changes of float format and the same-shape casts are the identity. -/
theorem pay_apply (h : Vec Ideal S8192x64 .f32) (A : Vec Ideal S1024x8192 .bf16) (w : Vec Ideal S64x40 .f32) (b : Vec Ideal S1x40 .f32)
    (r : Fin 1024) (c : Fin 40) :
    k4_pay1 (F := Ideal) h A w b (ix2 r c)
      = max ((∑ j : Fin 64, (∑ k : Fin 8192, A (ix2 r k) * h (ix2 k j)) * w (ix2 j c)) + b (ix2 (0 : Fin 1) c)) 0 := by
  unfold k4_pay1
  show max (FloatOps.matmul (F := Ideal) dot_S1024x64_S64x40_S1024x40_1_0_0_1_n_n (some .fp32)
        (FloatOps.matmul (F := Ideal) dot_S1024x8192_S8192x64_S1024x64_1_0_0_1_n_n none
          (shapeCast S1024x8192 A shapeCasts_S1024x8192_S1024x8192)
          (truncf .bf16 (shapeCast S8192x64 h shapeCasts_S8192x64_S8192x64) bitsLt_bf16_f32)
          (constant S1024x64 .f32 0x00000000#32))
        w (constant S1024x40 .f32 0x00000000#32) (ix2 r c)
      + broadcastTo S1024x40 (shapeCast S1x40 b shapeCasts_S1x40_S1x40) broadcasts_S1x40_S1024x40 (ix2 r c))
      (Ideal.ofBits .f32 0x00000000#32) = _
  rw [shapeCast_self, shapeCast_self, shapeCast_self, Ideal.ofBits_zero_f32]
  refine congrArg (max · 0) (congrArg₂ (· + ·) ?_ ?_)
  · refine (matmul_zero (M := 1024) (K := 64) (N := 40) (some .fp32) _ w r c).trans
      (Finset.sum_congr rfl fun j _ => congrArg (· * w (ix2 j c)) ?_)
    exact matmul_zero (M := 1024) (K := 8192) (N := 64) none A (truncf .bf16 h bitsLt_bf16_f32) r j
  · exact broadcastTo_apply b broadcasts_S1x40_S1024x40 (ix2 r c) (ix2 (0 : Fin 1) c) (fun a => by match a with | ⟨0,_⟩ => rfl | ⟨1,_⟩ => rfl)

/-- A stored tile is the output layer of the whole arrays at the tile's rows: entry j of the tile, whose adjacency rows
    are rows of A (h0) and whose h, weight and bias are the whole arrays, is entry i of max((A · h) · W + b, 0) when i
    has j's column and the row of A that j's row reads. -/
theorem tile_eq (A : Gcn.Mat 8192 8192) (H : Gcn.Mat 8192 64) (W : Gcn.Mat 64 40) (B : Gcn.Mat 1 40)
    (x0 : Vec Ideal S1024x8192 .bf16) (x1 : Vec Ideal S8192x64 .f32) (x2 : Vec Ideal S64x40 .f32) (x3 : Vec Ideal S1x40 .f32)
    (j : S1024x40.Idx) (i : S8192x40.Idx)
    (h0 : ∀ k : Fin 8192, x0 (ix2 (j 0) k) = A (ix2 (i 0) k))
    (h1 : x1 = H) (h2 : x2 = W) (h3 : x3 = B) (hi : i 1 = j 1) :
    k4_pay1 (F := Ideal) x1 x0 x2 x3 j = Gcn.outAgg A H W B i := by
  obtain ⟨r, c, rfl⟩ : ∃ (r : Fin 1024) (c : Fin 40), j = ix2 r c := ⟨j 0, j 1, eq_ix2 j⟩
  rw [pay_apply]
  subst h1 h2 h3
  show _ = max ((∑ q : Fin 64, (∑ k : Fin 8192, A (ix2 (i 0) k) * x1 (ix2 k q)) * x2 (ix2 q (i 1))) + x3 (ix2 (0 : Fin 1) (i 1))) 0
  rw [hi]
  refine congrArg (max · 0) (congrArg (· + x3 (ix2 (0 : Fin 1) c)) (Finset.sum_congr rfl fun q _ => congrArg (· * x2 (ix2 q c)) ?_))
  exact Finset.sum_congr rfl fun k _ => congrArg (· * x1 (ix2 k q)) (h0 k)

/-- The printed index maps over the grid: the adjacency window and the output window are at row block t, column block 0;
    h, the weight and the bias are block (0, 0) at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of max((A · h) · Wo + bo, 0) of the arrays as the region finds them. -/
theorem flushed_eq (c : Dev nD) (t : Fin cfg4.N) :
    (dat4 V c).flushed 4 t = ((cfg4.win 4).blk t).view.read (Elt Ideal)
      (Gcn.outAgg (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero hz]
  simp only [View.ld_unit_zero (S := S1024x8192) hz, View.ld_unit_zero (S := S8192x64) hz, View.ld_unit_zero (S := S64x40) hz, View.ld_unit_zero (S := S1x40) hz]
  obtain ⟨e0, e1, e2, e3, e4, e5, e6, e7, e8, e9⟩ := idx_facts t
  funext j
  show k4_pay1 (F := Ideal) (iblk4 V c 1 t) (iblk4 V c 0 t) (iblk4 V c 2 t) (iblk4 V c 3 t) j
    = Gcn.outAgg (V c (Pipeline.arrRef spec4 0)) (V c (Pipeline.arrRef spec4 1)) (V c (Pipeline.arrRef spec4 2)) (V c (Pipeline.arrRef spec4 3)) (((cfg4.win 4).blk t).view.emb j)
  refine tile_eq (V c (Pipeline.arrRef spec4 0)) (V c (Pipeline.arrRef spec4 1)) (V c (Pipeline.arrRef spec4 2)) (V c (Pipeline.arrRef spec4 3))
    (iblk4 V c 0 t) (iblk4 V c 1 t) (iblk4 V c 2 t) (iblk4 V c 3 t) j (((cfg4.win 4).blk t).view.emb j) (fun k => ?_) ?_ ?_ ?_ ?_
  · show V c (Pipeline.arrRef spec4 0) (((cfg4.win 0).blk t).view.emb (ix2 (j 0) k)) = V c (Pipeline.arrRef spec4 0) _
    refine congrArg (V c (Pipeline.arrRef spec4 0)) (funext fun a => Fin.ext ?_)
    match a with
    | ⟨0, _⟩ => show win4_0.index t (0 : Fin 2) * 1024 + 1 * (j 0).val = win4_4.index t (0 : Fin 2) * 1024 + 1 * (j 0).val; omega
    | ⟨1, _⟩ => show win4_0.index t (1 : Fin 2) * 8192 + 1 * k.val = k.val; omega
  · funext y
    show V c (Pipeline.arrRef spec4 1) (((cfg4.win 1).blk t).view.emb y) = V c (Pipeline.arrRef spec4 1) y
    refine congrArg (V c (Pipeline.arrRef spec4 1)) (funext fun a => Fin.ext ?_)
    match a with
    | ⟨0, _⟩ => show win4_1.index t (0 : Fin 2) * 8192 + 1 * (y 0).val = (y 0).val; omega
    | ⟨1, _⟩ => show win4_1.index t (1 : Fin 2) * 64 + 1 * (y 1).val = (y 1).val; omega
  · funext y
    show V c (Pipeline.arrRef spec4 2) (((cfg4.win 2).blk t).view.emb y) = V c (Pipeline.arrRef spec4 2) y
    refine congrArg (V c (Pipeline.arrRef spec4 2)) (funext fun a => Fin.ext ?_)
    match a with
    | ⟨0, _⟩ => show win4_2.index t (0 : Fin 2) * 64 + 1 * (y 0).val = (y 0).val; omega
    | ⟨1, _⟩ => show win4_2.index t (1 : Fin 2) * 40 + 1 * (y 1).val = (y 1).val; omega
  · funext y
    show V c (Pipeline.arrRef spec4 3) (((cfg4.win 3).blk t).view.emb y) = V c (Pipeline.arrRef spec4 3) y
    refine congrArg (V c (Pipeline.arrRef spec4 3)) (funext fun a => Fin.ext ?_)
    match a with
    | ⟨0, _⟩ => show win4_3.index t (0 : Fin 2) * 1 + 1 * (y 0).val = (y 0).val; omega
    | ⟨1, _⟩ => show win4_3.index t (1 : Fin 2) * 40 + 1 * (y 1).val = (y 1).val; omega
  · apply Fin.ext
    show win4_4.index t (1 : Fin 2) * 40 + 1 * (j 1).val = (j 1).val
    omega

/-- An index of the output array is in point t's block iff each coordinate is in the block's range on its axis. -/
theorem mem_blk (t : Fin cfg4.N) (i : S8192x40.Idx) :
    i ∈ ((cfg4.win 4).blk t).view.set ↔ ∀ a : Fin 2, win4_4.index t a * S1024x40.size a ≤ (i a).val ∧ (i a).val < win4_4.index t a * S1024x40.size a + S1024x40.size a := by
  show i ∈ ((View.whole main_v21).slice (win4_4.rect t)).set ↔ _
  rw [View.set_slice_whole, Rect.mem_set_unit]
  exact Iff.rfl

/-- Row r of the output lies in the block of point r / 1024, which is written back. -/
theorem cover (i : S8192x40.Idx) :
    ∃ t : Fin cfg4.N, (cfg4.win 4).flush t = true ∧ i ∈ ((cfg4.win 4).blk t).view.set := by
  have hi0 : (i 0).val < 8192 := (i 0).isLt
  have hi1 : (i 1).val < 40 := (i 1).isLt
  have hN : cfg4.N = 8 := N_4
  let t : Fin cfg4.N := ⟨(i 0).val / 1024, by rw [hN]; omega⟩
  obtain ⟨-, -, -, -, -, -, -, -, e8, e9⟩ := idx_facts t
  have ht : t.val = (i 0).val / 1024 := rfl
  refine ⟨t, flush4_4 t, ?_⟩
  rw [mem_blk]
  intro a
  match a with
  | ⟨0, _⟩ => show win4_4.index t (0 : Fin 2) * 1024 ≤ (i 0).val ∧ (i 0).val < win4_4.index t (0 : Fin 2) * 1024 + 1024; omega
  | ⟨1, _⟩ => show win4_4.index t (1 : Fin 2) * 40 ≤ (i 1).val ∧ (i 1).val < win4_4.index t (1 : Fin 2) * 40 + 40; omega

end R4

/-- The output array of the last region after all eight points is max((A · h) · Wo + bo, 0) of the arrays the region finds. -/
theorem final4 (c : Dev nD) :
    (dat4 V c).arrAt 4 cfg4.N = Gcn.outAgg (V c (Pipeline.arrRef spec4 0)) (V c (Pipeline.arrRef spec4 1)) (V c (Pipeline.arrRef spec4 2)) (V c (Pipeline.arrRef spec4 3)) :=
  (dat4 V c).arrAt_eq_of_cover 4 (Gcn.outAgg (V c (Pipeline.arrRef spec4 0)) (V c (Pipeline.arrRef spec4 1)) (V c (Pipeline.arrRef spec4 2)) (V c (Pipeline.arrRef spec4 3)))
    (fun t _ => R4.flushed_eq V c t) R4.cover

end Cert.KernelIdeal.RegionValue

end
-- ==== Proof.KernelChain.lean ====
/-
  The kernel's result as one function of the launch contents.

  @main alternates five kernel regions with short host stretches. Reading the program's buffers after each segment,
  in order: a host stretch slices the stacked weights and biases and reshapes a bias vector to one row; region 0 leaves
  the input projection x · W₁ + b₁; region 1 leaves the first hidden layer max((A · h) · W + b + h, 0) and a copy of the
  adjacency matrix A, which regions 2, 3 and 4 read; regions 2 and 3 leave the next two hidden layers; region 4 leaves
  the output layer max((A · h) · W + b, 0). An argument array is never written, and a region leaves its input arrays as
  it found them. Composed, the result buffer holds the whole network, every layer aggregating first.
-/
import proofs.«104737_j52304111731095_2_alg».proof.Proof.Region0
import proofs.«104737_j52304111731095_2_alg».proof.Proof.Region1
import proofs.«104737_j52304111731095_2_alg».proof.Proof.Region2
import proofs.«104737_j52304111731095_2_alg».proof.Proof.Region3
import proofs.«104737_j52304111731095_2_alg».proof.Proof.Region4
import Idealize.ShloMosaic.Lib.StableHlo.Run

set_option maxRecDepth 16384

noncomputable section

namespace Cert.KernelIdeal.Chain

open Cert.KernelIdeal Cert.KernelIdeal.Gen Cert.KernelIdeal.RegionValue
open Idealize.ShloMosaic Idealize.ShloMosaic.TcCoe Idealize.SL.Sem Idealize.ShloMosaic.StableHlo

variable [hK : Cert.KernelIdeal.Facts]
variable (m : (ℓ : Loc nD τ sig) → Buf (Elt Ideal) ℓ) (ρ : Dev nD → PrngReg) (c : Dev nD)

/-- A buffer's launch contents on core `c`. -/
abbrev arg (b : Ref sig .tc) : Buf (Elt Ideal) ((c.tc : Thread nD τ).loc b) := m ((c.tc : Thread nD τ).loc b)

/-- The first bias vector kept as one row. -/
abbrev biasIn : Gcn.Mat 1 64 := shapeCast S1x64 (arg m c main_arg4) shapeCasts_S64_S1x64
/-- The hidden layers' weight matrices: slice `i` of the stacked weights, as a 64 × 64 matrix. -/
abbrev weightA : Gcn.Mat 64 64 := shapeCast S64x64 (extractStridedSlice S1x64x64 ![0, 0, 0] (arg m c main_arg5) slices_S3x64x64_S1x64x64_0_0_0) shapeCasts_S1x64x64_S64x64
abbrev weightB : Gcn.Mat 64 64 := shapeCast S64x64 (extractStridedSlice S1x64x64 ![1, 0, 0] (arg m c main_arg5) slices_S3x64x64_S1x64x64_1_0_0) shapeCasts_S1x64x64_S64x64
abbrev weightC : Gcn.Mat 64 64 := shapeCast S64x64 (extractStridedSlice S1x64x64 ![2, 0, 0] (arg m c main_arg5) slices_S3x64x64_S1x64x64_2_0_0) shapeCasts_S1x64x64_S64x64
/-- The hidden layers' biases: row `i` of the stacked biases, flattened to a vector and kept as one row. -/
abbrev biasA : Gcn.Mat 1 64 := shapeCast S1x64 (shapeCast S64 (extractStridedSlice S1x64 ![0, 0] (arg m c main_arg6) slices_S3x64_S1x64_0_0) shapeCasts_S1x64_S64) shapeCasts_S64_S1x64
abbrev biasB : Gcn.Mat 1 64 := shapeCast S1x64 (shapeCast S64 (extractStridedSlice S1x64 ![1, 0] (arg m c main_arg6) slices_S3x64_S1x64_1_0) shapeCasts_S1x64_S64) shapeCasts_S64_S1x64
abbrev biasC : Gcn.Mat 1 64 := shapeCast S1x64 (shapeCast S64 (extractStridedSlice S1x64 ![2, 0] (arg m c main_arg6) slices_S3x64_S1x64_2_0) shapeCasts_S1x64_S64) shapeCasts_S64_S1x64
/-- The output layer's bias kept as one row. -/
abbrev biasOut : Gcn.Mat 1 40 := shapeCast S1x40 (arg m c main_arg8) shapeCasts_S40_S1x40

/-- The hidden states after the input projection and after each hidden layer (every layer aggregating first). -/
abbrev hid0 : Gcn.Mat 8192 64 := Gcn.fc (arg m c main_arg0) (arg m c main_arg3) (biasIn m c)
abbrev hid1 : Gcn.Mat 8192 64 := Gcn.layerAgg (arg m c main_arg1) (hid0 m c) (weightA m c) (biasA m c)
abbrev hid2 : Gcn.Mat 8192 64 := Gcn.layerAgg (arg m c main_arg1) (hid1 m c) (weightB m c) (biasB m c)
abbrev hid3 : Gcn.Mat 8192 64 := Gcn.layerAgg (arg m c main_arg1) (hid2 m c) (weightC m c) (biasC m c)

/-- Reads a buffer after a host stretch: each operation's result at its own buffer is its function of its operands,
    and any other buffer holds what it held before. -/
local macro "host_read " ops:ident : tactic => `(tactic| (simp only [$ops:ident]; after_results))

/-! ## After the first host stretch (the first bias reshaped to a row) -/

theorem s1_arg0 : W1 m ρ c (Proc.devRef .tc main_arg0) = arg m c main_arg0 := by
  show StableHlo.after hostOps0 (W0 m ρ c) (Proc.devRef .tc main_arg0) = _
  host_read hostOps0
theorem s1_arg1 : W1 m ρ c (Proc.devRef .tc main_arg1) = arg m c main_arg1 := by
  show StableHlo.after hostOps0 (W0 m ρ c) (Proc.devRef .tc main_arg1) = _
  host_read hostOps0
theorem s1_arg3 : W1 m ρ c (Proc.devRef .tc main_arg3) = arg m c main_arg3 := by
  show StableHlo.after hostOps0 (W0 m ρ c) (Proc.devRef .tc main_arg3) = _
  host_read hostOps0
theorem s1_arg5 : W1 m ρ c (Proc.devRef .tc main_arg5) = arg m c main_arg5 := by
  show StableHlo.after hostOps0 (W0 m ρ c) (Proc.devRef .tc main_arg5) = _
  host_read hostOps0
theorem s1_arg6 : W1 m ρ c (Proc.devRef .tc main_arg6) = arg m c main_arg6 := by
  show StableHlo.after hostOps0 (W0 m ρ c) (Proc.devRef .tc main_arg6) = _
  host_read hostOps0
theorem s1_arg7 : W1 m ρ c (Proc.devRef .tc main_arg7) = arg m c main_arg7 := by
  show StableHlo.after hostOps0 (W0 m ρ c) (Proc.devRef .tc main_arg7) = _
  host_read hostOps0
theorem s1_arg8 : W1 m ρ c (Proc.devRef .tc main_arg8) = arg m c main_arg8 := by
  show StableHlo.after hostOps0 (W0 m ρ c) (Proc.devRef .tc main_arg8) = _
  host_read hostOps0
theorem s1_v0 : W1 m ρ c (Proc.devRef .tc main_v0) = biasIn m c := by
  show StableHlo.after hostOps0 (W0 m ρ c) (Proc.devRef .tc main_v0) = _
  host_read hostOps0
  rfl

/-! ## After region 0 (the input projection) -/

theorem s2_arg1 : W2 m ρ c (Proc.devRef .tc main_arg1) = arg m c main_arg1 :=
  (W2_of_ne m ρ c main_arg1 (by decide)).trans (s1_arg1 m ρ c)
theorem s2_arg5 : W2 m ρ c (Proc.devRef .tc main_arg5) = arg m c main_arg5 :=
  (W2_of_ne m ρ c main_arg5 (by decide)).trans (s1_arg5 m ρ c)
theorem s2_arg6 : W2 m ρ c (Proc.devRef .tc main_arg6) = arg m c main_arg6 :=
  (W2_of_ne m ρ c main_arg6 (by decide)).trans (s1_arg6 m ρ c)
theorem s2_arg7 : W2 m ρ c (Proc.devRef .tc main_arg7) = arg m c main_arg7 :=
  (W2_of_ne m ρ c main_arg7 (by decide)).trans (s1_arg7 m ρ c)
theorem s2_arg8 : W2 m ρ c (Proc.devRef .tc main_arg8) = arg m c main_arg8 :=
  (W2_of_ne m ρ c main_arg8 (by decide)).trans (s1_arg8 m ρ c)
theorem s2_v1 : W2 m ρ c (Proc.devRef .tc main_v1) = hid0 m c := by
  rw [show W2 m ρ c (Proc.devRef .tc main_v1) = Gcn.fc (W1 m ρ c (Proc.devRef .tc main_arg0)) (W1 m ρ c (Proc.devRef .tc main_arg3)) (W1 m ρ c (Proc.devRef .tc main_v0))
    from (W2_arr m ρ c 3).trans (final0 (V1 m ρ) c), s1_arg0, s1_arg3, s1_v0]

/-! ## After the second host stretch (the first hidden layer's weight slice and bias row) -/

theorem s3_arg1 : W3 m ρ c (Proc.devRef .tc main_arg1) = arg m c main_arg1 := by
  show StableHlo.after hostOps1 (W2 m ρ c) (Proc.devRef .tc main_arg1) = _
  host_read hostOps1
  exact s2_arg1 m ρ c
theorem s3_arg5 : W3 m ρ c (Proc.devRef .tc main_arg5) = arg m c main_arg5 := by
  show StableHlo.after hostOps1 (W2 m ρ c) (Proc.devRef .tc main_arg5) = _
  host_read hostOps1
  exact s2_arg5 m ρ c
theorem s3_arg6 : W3 m ρ c (Proc.devRef .tc main_arg6) = arg m c main_arg6 := by
  show StableHlo.after hostOps1 (W2 m ρ c) (Proc.devRef .tc main_arg6) = _
  host_read hostOps1
  exact s2_arg6 m ρ c
theorem s3_arg7 : W3 m ρ c (Proc.devRef .tc main_arg7) = arg m c main_arg7 := by
  show StableHlo.after hostOps1 (W2 m ρ c) (Proc.devRef .tc main_arg7) = _
  host_read hostOps1
  exact s2_arg7 m ρ c
theorem s3_arg8 : W3 m ρ c (Proc.devRef .tc main_arg8) = arg m c main_arg8 := by
  show StableHlo.after hostOps1 (W2 m ρ c) (Proc.devRef .tc main_arg8) = _
  host_read hostOps1
  exact s2_arg8 m ρ c
theorem s3_v1 : W3 m ρ c (Proc.devRef .tc main_v1) = hid0 m c := by
  show StableHlo.after hostOps1 (W2 m ρ c) (Proc.devRef .tc main_v1) = _
  host_read hostOps1
  exact s2_v1 m ρ c
theorem s3_v3 : W3 m ρ c (Proc.devRef .tc main_v3) = weightA m c := by
  show StableHlo.after hostOps1 (W2 m ρ c) (Proc.devRef .tc main_v3) = _
  host_read hostOps1
  rw [s2_arg5]
  rfl
theorem s3_v6 : W3 m ρ c (Proc.devRef .tc main_v6) = biasA m c := by
  show StableHlo.after hostOps1 (W2 m ρ c) (Proc.devRef .tc main_v6) = _
  host_read hostOps1
  rw [s2_arg6]
  rfl

/-! ## After region 1 (the first hidden layer, and the adjacency copied) -/

theorem s4_arg5 : W4 m ρ c (Proc.devRef .tc main_arg5) = arg m c main_arg5 :=
  (W4_of_ne m ρ c main_arg5 (by decide)).trans (s3_arg5 m ρ c)
theorem s4_arg6 : W4 m ρ c (Proc.devRef .tc main_arg6) = arg m c main_arg6 :=
  (W4_of_ne m ρ c main_arg6 (by decide)).trans (s3_arg6 m ρ c)
theorem s4_arg7 : W4 m ρ c (Proc.devRef .tc main_arg7) = arg m c main_arg7 :=
  (W4_of_ne m ρ c main_arg7 (by decide)).trans (s3_arg7 m ρ c)
theorem s4_arg8 : W4 m ρ c (Proc.devRef .tc main_arg8) = arg m c main_arg8 :=
  (W4_of_ne m ρ c main_arg8 (by decide)).trans (s3_arg8 m ρ c)
theorem s4_v7_0 : W4 m ρ c (Proc.devRef .tc main_v7_0) = hid1 m c := by
  rw [show W4 m ρ c (Proc.devRef .tc main_v7_0) = Gcn.layerAgg (W3 m ρ c (Proc.devRef .tc main_arg1)) (W3 m ρ c (Proc.devRef .tc main_v1)) (W3 m ρ c (Proc.devRef .tc main_v3)) (W3 m ρ c (Proc.devRef .tc main_v6))
    from (W4_arr m ρ c 4).trans (final1_h (V3 m ρ) c), s3_arg1, s3_v1, s3_v3, s3_v6]
theorem s4_v7_1 : W4 m ρ c (Proc.devRef .tc main_v7_1) = arg m c main_arg1 := by
  rw [show W4 m ρ c (Proc.devRef .tc main_v7_1) = W3 m ρ c (Proc.devRef .tc main_arg1)
    from (W4_arr m ρ c 5).trans (final1_adj (V3 m ρ) c), s3_arg1]

/-! ## After the third host stretch -/

theorem s5_arg5 : W5 m ρ c (Proc.devRef .tc main_arg5) = arg m c main_arg5 := by
  show StableHlo.after hostOps2 (W4 m ρ c) (Proc.devRef .tc main_arg5) = _
  host_read hostOps2
  exact s4_arg5 m ρ c
theorem s5_arg6 : W5 m ρ c (Proc.devRef .tc main_arg6) = arg m c main_arg6 := by
  show StableHlo.after hostOps2 (W4 m ρ c) (Proc.devRef .tc main_arg6) = _
  host_read hostOps2
  exact s4_arg6 m ρ c
theorem s5_arg7 : W5 m ρ c (Proc.devRef .tc main_arg7) = arg m c main_arg7 := by
  show StableHlo.after hostOps2 (W4 m ρ c) (Proc.devRef .tc main_arg7) = _
  host_read hostOps2
  exact s4_arg7 m ρ c
theorem s5_arg8 : W5 m ρ c (Proc.devRef .tc main_arg8) = arg m c main_arg8 := by
  show StableHlo.after hostOps2 (W4 m ρ c) (Proc.devRef .tc main_arg8) = _
  host_read hostOps2
  exact s4_arg8 m ρ c
theorem s5_v7_1 : W5 m ρ c (Proc.devRef .tc main_v7_1) = arg m c main_arg1 := by
  show StableHlo.after hostOps2 (W4 m ρ c) (Proc.devRef .tc main_v7_1) = _
  host_read hostOps2
  exact s4_v7_1 m ρ c
theorem s5_v7_0 : W5 m ρ c (Proc.devRef .tc main_v7_0) = hid1 m c := by
  show StableHlo.after hostOps2 (W4 m ρ c) (Proc.devRef .tc main_v7_0) = _
  host_read hostOps2
  exact s4_v7_0 m ρ c
theorem s5_v9 : W5 m ρ c (Proc.devRef .tc main_v9) = weightB m c := by
  show StableHlo.after hostOps2 (W4 m ρ c) (Proc.devRef .tc main_v9) = _
  host_read hostOps2
  rw [s4_arg5]
  rfl
theorem s5_v12 : W5 m ρ c (Proc.devRef .tc main_v12) = biasB m c := by
  show StableHlo.after hostOps2 (W4 m ρ c) (Proc.devRef .tc main_v12) = _
  host_read hostOps2
  rw [s4_arg6]
  rfl

/-! ## After region 2 (the second hidden layer) -/

theorem s6_arg5 : W6 m ρ c (Proc.devRef .tc main_arg5) = arg m c main_arg5 :=
  (W6_of_ne m ρ c main_arg5 (by decide)).trans (s5_arg5 m ρ c)
theorem s6_arg6 : W6 m ρ c (Proc.devRef .tc main_arg6) = arg m c main_arg6 :=
  (W6_of_ne m ρ c main_arg6 (by decide)).trans (s5_arg6 m ρ c)
theorem s6_arg7 : W6 m ρ c (Proc.devRef .tc main_arg7) = arg m c main_arg7 :=
  (W6_of_ne m ρ c main_arg7 (by decide)).trans (s5_arg7 m ρ c)
theorem s6_arg8 : W6 m ρ c (Proc.devRef .tc main_arg8) = arg m c main_arg8 :=
  (W6_of_ne m ρ c main_arg8 (by decide)).trans (s5_arg8 m ρ c)
theorem s6_v7_1 : W6 m ρ c (Proc.devRef .tc main_v7_1) = arg m c main_arg1 :=
  ((W6_arr m ρ c 0).trans (((dat2 (V5 m ρ) c).arrAt_in 0 rfl _).trans (A_eq2 (V5 m ρ) c 0))).trans (s5_v7_1 m ρ c)
theorem s6_v13 : W6 m ρ c (Proc.devRef .tc main_v13) = hid2 m c := by
  rw [show W6 m ρ c (Proc.devRef .tc main_v13) = Gcn.layerAgg (W5 m ρ c (Proc.devRef .tc main_v7_1)) (W5 m ρ c (Proc.devRef .tc main_v7_0)) (W5 m ρ c (Proc.devRef .tc main_v9)) (W5 m ρ c (Proc.devRef .tc main_v12))
    from (W6_arr m ρ c 4).trans (final2 (V5 m ρ) c), s5_v7_1, s5_v7_0, s5_v9, s5_v12]

/-! ## After the fourth host stretch -/

theorem s7_arg7 : W7 m ρ c (Proc.devRef .tc main_arg7) = arg m c main_arg7 := by
  show StableHlo.after hostOps3 (W6 m ρ c) (Proc.devRef .tc main_arg7) = _
  host_read hostOps3
  exact s6_arg7 m ρ c
theorem s7_arg8 : W7 m ρ c (Proc.devRef .tc main_arg8) = arg m c main_arg8 := by
  show StableHlo.after hostOps3 (W6 m ρ c) (Proc.devRef .tc main_arg8) = _
  host_read hostOps3
  exact s6_arg8 m ρ c
theorem s7_v7_1 : W7 m ρ c (Proc.devRef .tc main_v7_1) = arg m c main_arg1 := by
  show StableHlo.after hostOps3 (W6 m ρ c) (Proc.devRef .tc main_v7_1) = _
  host_read hostOps3
  exact s6_v7_1 m ρ c
theorem s7_v13 : W7 m ρ c (Proc.devRef .tc main_v13) = hid2 m c := by
  show StableHlo.after hostOps3 (W6 m ρ c) (Proc.devRef .tc main_v13) = _
  host_read hostOps3
  exact s6_v13 m ρ c
theorem s7_v15 : W7 m ρ c (Proc.devRef .tc main_v15) = weightC m c := by
  show StableHlo.after hostOps3 (W6 m ρ c) (Proc.devRef .tc main_v15) = _
  host_read hostOps3
  rw [s6_arg5]
  rfl
theorem s7_v18 : W7 m ρ c (Proc.devRef .tc main_v18) = biasC m c := by
  show StableHlo.after hostOps3 (W6 m ρ c) (Proc.devRef .tc main_v18) = _
  host_read hostOps3
  rw [s6_arg6]
  rfl

/-! ## After region 3 (the third hidden layer) -/

theorem s8_arg7 : W8 m ρ c (Proc.devRef .tc main_arg7) = arg m c main_arg7 :=
  (W8_of_ne m ρ c main_arg7 (by decide)).trans (s7_arg7 m ρ c)
theorem s8_arg8 : W8 m ρ c (Proc.devRef .tc main_arg8) = arg m c main_arg8 :=
  (W8_of_ne m ρ c main_arg8 (by decide)).trans (s7_arg8 m ρ c)
theorem s8_v7_1 : W8 m ρ c (Proc.devRef .tc main_v7_1) = arg m c main_arg1 :=
  ((W8_arr m ρ c 0).trans (((dat3 (V7 m ρ) c).arrAt_in 0 rfl _).trans (A_eq3 (V7 m ρ) c 0))).trans (s7_v7_1 m ρ c)
theorem s8_v19 : W8 m ρ c (Proc.devRef .tc main_v19) = hid3 m c := by
  rw [show W8 m ρ c (Proc.devRef .tc main_v19) = Gcn.layerAgg (W7 m ρ c (Proc.devRef .tc main_v7_1)) (W7 m ρ c (Proc.devRef .tc main_v13)) (W7 m ρ c (Proc.devRef .tc main_v15)) (W7 m ρ c (Proc.devRef .tc main_v18))
    from (W8_arr m ρ c 4).trans (final3 (V7 m ρ) c), s7_v7_1, s7_v13, s7_v15, s7_v18]

/-! ## After the last host stretch (the output bias reshaped to a row) -/

theorem s9_arg7 : W9 m ρ c (Proc.devRef .tc main_arg7) = arg m c main_arg7 := by
  show StableHlo.after hostOps4 (W8 m ρ c) (Proc.devRef .tc main_arg7) = _
  host_read hostOps4
  exact s8_arg7 m ρ c
theorem s9_v7_1 : W9 m ρ c (Proc.devRef .tc main_v7_1) = arg m c main_arg1 := by
  show StableHlo.after hostOps4 (W8 m ρ c) (Proc.devRef .tc main_v7_1) = _
  host_read hostOps4
  exact s8_v7_1 m ρ c
theorem s9_v19 : W9 m ρ c (Proc.devRef .tc main_v19) = hid3 m c := by
  show StableHlo.after hostOps4 (W8 m ρ c) (Proc.devRef .tc main_v19) = _
  host_read hostOps4
  exact s8_v19 m ρ c
theorem s9_v20 : W9 m ρ c (Proc.devRef .tc main_v20) = biasOut m c := by
  show StableHlo.after hostOps4 (W8 m ρ c) (Proc.devRef .tc main_v20) = _
  host_read hostOps4
  rw [s8_arg8]
  rfl

/-! ## After region 4: the result -/

/-- The result buffer after the last region is the whole network, every layer aggregating first, of the launch
    contents of the arguments. -/
theorem result_eq : W10 m ρ c (Proc.devRef .tc main_v21)
    = Gcn.netAgg (arg m c main_arg0) (arg m c main_arg1) (arg m c main_arg3) (biasIn m c) (weightA m c) (biasA m c)
        (weightB m c) (biasB m c) (weightC m c) (biasC m c) (arg m c main_arg7) (biasOut m c) := by
  rw [show W10 m ρ c (Proc.devRef .tc main_v21) = Gcn.outAgg (W9 m ρ c (Proc.devRef .tc main_v7_1)) (W9 m ρ c (Proc.devRef .tc main_v19)) (W9 m ρ c (Proc.devRef .tc main_arg7)) (W9 m ρ c (Proc.devRef .tc main_v20))
    from (W10_arr m ρ c 4).trans (final4 (V9 m ρ) c), s9_v7_1, s9_v19, s9_arg7, s9_v20]
  rfl

end Cert.KernelIdeal.Chain
end
-- ==== Proof.RefValue.lean ====
/-
  The reference's result as one function of its arguments: the network with every layer projecting first.

  Each host contraction is the exact matrix product; a product plus a bias vector laid out as one row and copied into
  every row is the projection with that row; a maximum against the zero scalar copied to every entry is max(·, 0).
-/
import proofs.«104737_j52304111731095_2_alg».proof.Proof.RefImports
import proofs.«104737_j52304111731095_2_alg».proof.Proof.GcnSpec
import proofs.«104737_j52304111731095_2_alg».proof.Proof.LibExactProduct
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx ExactProduct

section Laws

variable {n k d e : ℕ}

/-- The zero scalar copied to every entry of an array reads 0 everywhere. -/
theorem zeroFill_apply {T : Shape} (hz : (⟨0, ![]⟩ : Shape).BroadcastsInDim T ![]) (j : T.Idx) :
    broadcastInDim T ![] hz (constant (F := Ideal) ⟨0, ![]⟩ .f32 0x00000000#32) j = 0 := by
  rw [broadcastInDim_scalar_apply, constant_apply, Ideal.ofBits_zero_f32]

/-- The input projection: the host's product plus the bias vector copied into every row is x · W + b. -/
theorem fc_eq (dd : DotDims ⟨2, ![n, k]⟩ ⟨2, ![k, d]⟩ ⟨2, ![n, d]⟩) (hd : dd = DotDims.plain n k d)
    (x : FVec Ideal ⟨2, ![n, k]⟩ .f32) (w : FVec Ideal ⟨2, ![k, d]⟩ .f32) (bp : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hc : (⟨1, ![d]⟩ : Shape).ShapeCasts ⟨2, ![1, d]⟩) :
    addf (F := Ideal) (φ := .f32) (Host.dotGeneral (F := Ideal) dd none x w)
        (broadcastInDim ⟨2, ![n, d]⟩ ![0, 1] h2 (broadcastInDim ⟨2, ![1, d]⟩ ![1] h1 bp))
      = Gcn.fc x w (shapeCast ⟨2, ![1, d]⟩ bp hc) := by
  rw [hostDot_eq_mm dd hd]
  exact addRow_eq_proj x w bp h1 h2 hc

/-- A hidden layer as the host computes it, A · (h · W) + b + h against zero, is the layer projecting first. -/
theorem layer_eq (dA : DotDims ⟨2, ![n, n]⟩ ⟨2, ![n, d]⟩ ⟨2, ![n, d]⟩) (hA : dA = DotDims.plain n n d)
    (dW : DotDims ⟨2, ![n, d]⟩ ⟨2, ![d, d]⟩ ⟨2, ![n, d]⟩) (hW : dW = DotDims.plain n d d)
    (A : FVec Ideal ⟨2, ![n, n]⟩ .f32) (h : FVec Ideal ⟨2, ![n, d]⟩ .f32) (w : FVec Ideal ⟨2, ![d, d]⟩ .f32)
    (bp : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![])
    (hc : (⟨1, ![d]⟩ : Shape).ShapeCasts ⟨2, ![1, d]⟩) :
    maximumf (F := Ideal) (φ := .f32)
        (addf (addf (Host.dotGeneral (F := Ideal) dA none A (Host.dotGeneral (F := Ideal) dW none h w))
          (broadcastInDim ⟨2, ![n, d]⟩ ![0, 1] h2 (broadcastInDim ⟨2, ![1, d]⟩ ![1] h1 bp))) h)
        (broadcastInDim ⟨2, ![n, d]⟩ ![] hz (constant (F := Ideal) ⟨0, ![]⟩ .f32 0x00000000#32))
      = Gcn.layerProj A h w (shapeCast ⟨2, ![1, d]⟩ bp hc) := by
  rw [hostDot_eq_mm dW hW, hostDot_eq_mm dA hA, addRow_eq_proj _ _ bp h1 h2 hc]
  funext i
  rw [maximumf_apply, addf_apply, zeroFill_apply]
  rfl

/-- The output layer as the host computes it, A · (h · W) + b against zero, is the output layer projecting first. -/
theorem out_eq (dA : DotDims ⟨2, ![n, n]⟩ ⟨2, ![n, e]⟩ ⟨2, ![n, e]⟩) (hA : dA = DotDims.plain n n e)
    (dW : DotDims ⟨2, ![n, d]⟩ ⟨2, ![d, e]⟩ ⟨2, ![n, e]⟩) (hW : dW = DotDims.plain n d e)
    (A : FVec Ideal ⟨2, ![n, n]⟩ .f32) (h : FVec Ideal ⟨2, ![n, d]⟩ .f32) (w : FVec Ideal ⟨2, ![d, e]⟩ .f32)
    (bp : FVec Ideal ⟨1, ![e]⟩ .f32)
    (h1 : (⟨1, ![e]⟩ : Shape).BroadcastsInDim ⟨2, ![1, e]⟩ ![1])
    (h2 : (⟨2, ![1, e]⟩ : Shape).BroadcastsInDim ⟨2, ![n, e]⟩ ![0, 1])
    (hz : (⟨0, ![]⟩ : Shape).BroadcastsInDim ⟨2, ![n, e]⟩ ![])
    (hc : (⟨1, ![e]⟩ : Shape).ShapeCasts ⟨2, ![1, e]⟩) :
    maximumf (F := Ideal) (φ := .f32)
        (addf (Host.dotGeneral (F := Ideal) dA none A (Host.dotGeneral (F := Ideal) dW none h w))
          (broadcastInDim ⟨2, ![n, e]⟩ ![0, 1] h2 (broadcastInDim ⟨2, ![1, e]⟩ ![1] h1 bp)))
        (broadcastInDim ⟨2, ![n, e]⟩ ![] hz (constant (F := Ideal) ⟨0, ![]⟩ .f32 0x00000000#32))
      = Gcn.outProj A h w (shapeCast ⟨2, ![1, e]⟩ bp hc) := by
  rw [hostDot_eq_mm dW hW, hostDot_eq_mm dA hA, addRow_eq_proj _ _ bp h1 h2 hc]
  funext i
  rw [maximumf_apply, zeroFill_apply]
  rfl

end Laws

section Value

/-- The reference's result buffer is the network with every layer projecting first, of the arguments: the three
    hidden layers read their weight and bias from slice 0, 1, 2 of the stacked arrays. -/
theorem ref_value [hReferenceIdeal : Cert.ReferenceIdeal.Facts] (m : (ℓ : Loc nD τ sig) → Buf (Elt Ideal) ℓ) (c : Dev nD)
    (h64 : S64.ShapeCasts S1x64) (h40 : S40.ShapeCasts S1x40) :
    Cert.ReferenceIdeal.Value.res_out0 (F := Ideal) m c
      = Gcn.netProj (m ((c.tc : Thread nD τ).loc main_arg0)) (m ((c.tc : Thread nD τ).loc main_arg1)) (m ((c.tc : Thread nD τ).loc main_arg3))
          (shapeCast S1x64 (m ((c.tc : Thread nD τ).loc main_arg4)) h64)
          (shapeCast S64x64 (extractStridedSlice S1x64x64 ![0, 0, 0] (m ((c.tc : Thread nD τ).loc main_arg5)) slices_S3x64x64_S1x64x64_0_0_0) shapeCasts_S1x64x64_S64x64)
          (shapeCast S1x64 (shapeCast S64 (extractStridedSlice S1x64 ![0, 0] (m ((c.tc : Thread nD τ).loc main_arg6)) slices_S3x64_S1x64_0_0) shapeCasts_S1x64_S64) h64)
          (shapeCast S64x64 (extractStridedSlice S1x64x64 ![1, 0, 0] (m ((c.tc : Thread nD τ).loc main_arg5)) slices_S3x64x64_S1x64x64_1_0_0) shapeCasts_S1x64x64_S64x64)
          (shapeCast S1x64 (shapeCast S64 (extractStridedSlice S1x64 ![1, 0] (m ((c.tc : Thread nD τ).loc main_arg6)) slices_S3x64_S1x64_1_0) shapeCasts_S1x64_S64) h64)
          (shapeCast S64x64 (extractStridedSlice S1x64x64 ![2, 0, 0] (m ((c.tc : Thread nD τ).loc main_arg5)) slices_S3x64x64_S1x64x64_2_0_0) shapeCasts_S1x64x64_S64x64)
          (shapeCast S1x64 (shapeCast S64 (extractStridedSlice S1x64 ![2, 0] (m ((c.tc : Thread nD τ).loc main_arg6)) slices_S3x64_S1x64_2_0) shapeCasts_S1x64_S64) h64)
          (m ((c.tc : Thread nD τ).loc main_arg7))
          (shapeCast S1x40 (m ((c.tc : Thread nD τ).loc main_arg8)) h40) := by
  show Cert.ReferenceIdeal.Value.res_main_v42 (F := Ideal) m c = _
  unfold Cert.ReferenceIdeal.Value.res_main_v42
  -- the input projection, wherever it occurs
  rw [fc_eq dot_S8192x1024_S1024x64_S8192x64_1_0_0_1_n_n rfl _ _ _ _ _ h64]
  -- the three hidden layers, innermost first: a layer's input is the stage before it
  rw [layer_eq dot_S8192x8192_S8192x64_S8192x64_1_0_0_1_n_n rfl dot_S8192x64_S64x64_S8192x64_1_0_0_1_n_n rfl _
    (Gcn.fc _ _ _) _ _ _ _ _ h64]
  rw [layer_eq dot_S8192x8192_S8192x64_S8192x64_1_0_0_1_n_n rfl dot_S8192x64_S64x64_S8192x64_1_0_0_1_n_n rfl _
    (Gcn.layerProj _ (Gcn.fc _ _ _) _ _) _ _ _ _ _ h64]
  rw [layer_eq dot_S8192x8192_S8192x64_S8192x64_1_0_0_1_n_n rfl dot_S8192x64_S64x64_S8192x64_1_0_0_1_n_n rfl _
    (Gcn.layerProj _ (Gcn.layerProj _ (Gcn.fc _ _ _) _ _) _ _) _ _ _ _ _ h64]
  -- the output layer
  rw [out_eq dot_S8192x8192_S8192x40_S8192x40_1_0_0_1_n_n rfl dot_S8192x64_S64x40_S8192x40_1_0_0_1_n_n rfl _ _ _ _ _ _ _ h40]
  rfl

end Value

end Cert.ReferenceIdeal.RefValue

end
-- ==== Proof.GcnAlgebra.lean ====
/-
  The algebra of the network on the extended reals.

  * Products, sums, finite sums and the maximum with zero of real numbers are real numbers, so every layer
    of the network maps matrices of reals to matrices of reals.
  * The matrix product is associative entry by entry on matrices of reals, so a layer computed aggregating
    first equals the same layer computed projecting first; by induction over the layers, so do the two networks.
  * A shape cast and a slice are the operand composed with a re-indexing, so they keep reals real.
-/
import proofs.«104737_j52304111731095_2_alg».proof.Proof.GcnSpec

noncomputable section

namespace Gcn

open Idealize.ShloMosaic Idealize.ShloMosaic.ValueIdx ExactProduct

variable {n k d e : ℕ}

/-! ### Real numbers inside the extended reals -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The maximum of a real and zero is a real. -/
theorem real_max_zero {a : EReal} (ha : ∃ r : ℝ, a = (r : EReal)) : ∃ r : ℝ, max a 0 = (r : EReal) := by
  obtain ⟨r, rfl⟩ := ha
  rcases le_total (r : EReal) 0 with h | h
  · exact ⟨0, by rw [max_eq_right h]; rfl⟩
  · exact ⟨r, max_eq_left h⟩

/-- A finite sum of reals is a real. -/
theorem real_sum {ι : Type} [Fintype ι] {f : ι → EReal} (hf : ∀ i, ∃ r : ℝ, f i = (r : EReal)) :
    ∃ r : ℝ, ∑ i, f i = (r : EReal) := by
  choose g hg using hf
  exact ⟨∑ i, g i, by rw [MatmulAssoc.coe_sum]; exact Finset.sum_congr rfl fun i _ => hg i⟩

/-! ### Every layer keeps reals real -/

/-- The product of two matrices of reals is a matrix of reals. -/
theorem isReal_mm {a b c : ℕ} {x : Mat a b} {w : Mat b c} (hx : IsReal x) (hw : IsReal w) : IsReal (ExactProduct.mm x w) :=
  fun _ => real_sum fun _ => real_mul (hx _) (hw _)

/-- The input projection of matrices of reals is a matrix of reals. -/
theorem isReal_fc {x : Mat n k} {w : Mat k d} {b : Mat 1 d} (hx : IsReal x) (hw : IsReal w) (hb : IsReal b) :
    IsReal (fc x w b) :=
  fun i => real_add (isReal_mm hx hw i) (hb _)

/-- A hidden layer, projecting first, of matrices of reals is a matrix of reals. -/
theorem isReal_layerProj {A : Mat n n} {h : Mat n d} {w : Mat d d} {b : Mat 1 d} (hA : IsReal A) (hh : IsReal h)
    (hw : IsReal w) (hb : IsReal b) : IsReal (layerProj A h w b) :=
  fun i => real_max_zero (real_add (real_add (isReal_mm hA (isReal_mm hh hw) i) (hb _)) (hh i))

/-! ### Associativity, and the two orders of a layer -/

/-- The matrix product is associative on matrices of reals: at (r, c) both sides are Σ_j Σ_k A(r, j) · h(j, k) · w(k, c). -/
theorem mm_assoc {a b c f : ℕ} {A : Mat a b} {h : Mat b c} {w : Mat c f} (hA : IsReal A) (hh : IsReal h) (hw : IsReal w) :
    ExactProduct.mm (ExactProduct.mm A h) w = ExactProduct.mm A (ExactProduct.mm h w) := by
  funext i
  exact MatmulAssoc.ereal_sum_mul_assoc (fun j : Fin b => A (ix2 (i 0) j)) (fun (j : Fin b) (l : Fin c) => h (ix2 j l))
    (fun l : Fin c => w (ix2 l (i 1))) (fun _ => hA _) (fun _ _ => hh _) (fun _ => hw _)

/-- A hidden layer aggregating first equals the layer projecting first, on matrices of reals. -/
theorem layerAgg_eq_layerProj {A : Mat n n} {h : Mat n d} {w : Mat d d} (b : Mat 1 d) (hA : IsReal A) (hh : IsReal h)
    (hw : IsReal w) : layerAgg A h w b = layerProj A h w b := by
  unfold layerAgg layerProj
  rw [mm_assoc hA hh hw]

/-- The output layer aggregating first equals the output layer projecting first, on matrices of reals. -/
theorem outAgg_eq_outProj {A : Mat n n} {h : Mat n d} {w : Mat d e} (b : Mat 1 e) (hA : IsReal A) (hh : IsReal h)
    (hw : IsReal w) : outAgg A h w b = outProj A h w b := by
  unfold outAgg outProj
  rw [mm_assoc hA hh hw]

/-- The two networks agree on real inputs: layer by layer, the hidden state is a matrix of reals (the input
    projection, then each hidden layer projecting first), so each layer's two orders agree. -/
theorem netAgg_eq_netProj {x : Mat n k} {A : Mat n n} {w1 : Mat k d} {b1 : Mat 1 d} {wa : Mat d d} {ba : Mat 1 d}
    {wb : Mat d d} {bb : Mat 1 d} {wc : Mat d d} {bc : Mat 1 d} {wo : Mat d e} (bo : Mat 1 e)
    (hx : IsReal x) (hA : IsReal A) (hw1 : IsReal w1) (hb1 : IsReal b1) (hwa : IsReal wa) (hba : IsReal ba)
    (hwb : IsReal wb) (hbb : IsReal bb) (hwc : IsReal wc) (hbc : IsReal bc) (hwo : IsReal wo) :
    netAgg x A w1 b1 wa ba wb bb wc bc wo bo = netProj x A w1 b1 wa ba wb bb wc bc wo bo := by
  have h0 : IsReal (fc x w1 b1) := isReal_fc hx hw1 hb1
  have h1 : IsReal (layerProj A (fc x w1 b1) wa ba) := isReal_layerProj hA h0 hwa hba
  have h2 : IsReal (layerProj A (layerProj A (fc x w1 b1) wa ba) wb bb) := isReal_layerProj hA h1 hwb hbb
  have h3 : IsReal (layerProj A (layerProj A (layerProj A (fc x w1 b1) wa ba) wb bb) wc bc) :=
    isReal_layerProj hA h2 hwc hbc
  unfold netAgg netProj
  rw [layerAgg_eq_layerProj ba hA h0 hwa, layerAgg_eq_layerProj bb hA h1 hwb, layerAgg_eq_layerProj bc hA h2 hwc,
    outAgg_eq_outProj bo hA h3 hwo]

/-! ### Re-indexings keep reals real -/

/-- A shape cast reads the operand at the index with the same row-major position. -/
theorem isReal_shapeCast {s t : Shape} {x : s.Idx → EReal} (h : s.ShapeCasts t) (hx : IsReal x) :
    IsReal (shapeCast t x h) :=
  fun _ => hx _

/-- A slice reads the operand at the index shifted by the offsets. -/
theorem isReal_extractStridedSlice {s t : Shape} (off : Fin s.rank → Nat) {x : s.Idx → EReal} (h : s.Slices off t)
    (hx : IsReal x) : IsReal (extractStridedSlice t off x h) :=
  fun _ => hx _

end Gcn

end
-- ==== Proof.FiniteInputs.lean ====
/-
  From the precondition to the finiteness of every float input.

  The precondition is a conjunction, one conjunct per input array x: the reduction by "and", over all axes, of the
  entrywise test |x| < +∞. A reduction by "and" that is 1 met a 1 at every entry; at an entry the test reads
  max(x, -x) < ⊤ on the extended reals, which excludes x = ⊤ and x = ⊥, so x is a real number.
-/
import proofs.«104737_j52304111731095_2_alg».proof.Defs
import proofs.«104737_j52304111731095_2_alg».proof.Proof.GcnSpec
import proofs.«104737_j52304111731095_2_alg».proof.Proof.Gen.Pre_finite_inputs
import Idealize.ShloMosaic.Lib.ReduceAll

noncomputable section

namespace Cert.KernelIdeal.Finite

open Idealize.ShloMosaic Idealize.SL.Sem

/-- The rank-0 shape has one index. -/
instance : Subsingleton (⟨0, ![]⟩ : Shape).Idx := ⟨fun a b => funext fun d => d.elim0⟩

/-- The pattern with sign 0, exponent all ones and significand 0 denotes +∞. -/
theorem ofBits_inf : Ideal.ofBits .f32 0x7F800000#32 = (⊤ : EReal) := by
  simp [Ideal.ofBits, Ideal.ieee]

/-- An extended real whose absolute value max(x, -x) is below +∞ is a real number: x = ⊤ gives max = ⊤, and x = ⊥
    gives -x = ⊤, so max = ⊤ again. -/
theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One conjunct of the precondition: if the reduction by "and" over all axes of the test |x| < +∞ is 1, every entry
    of x is a real number. -/
theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) : Gcn.IsReal x := by
  intro i
  have h := Host.reduce_andi_all _ init hr hu ValueIdx.ix0 e i
  exact real_of_abs_lt_inf (x i) h

/-- The entrywise "and" of two one-bit arrays is 1 at an index exactly when both are. -/
theorem andi_apply_eq_one {s : Shape} (x y : IVec s 1) (i : s.Idx) : andi x y i = 1#1 ↔ x i = 1#1 ∧ y i = 1#1 :=
  IntOp.andi_eq_one

/-- Under the precondition every entry of every float input the network reads is a real number. -/
theorem real_args [hKernelIdeal : Cert.KernelIdeal.Facts] [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Gcn.IsReal (m ((c.tc : Thread Cert.KernelIdeal.nD Cert.KernelIdeal.τ).loc Cert.KernelIdeal.main_arg0))
    ∧ Gcn.IsReal (m ((c.tc : Thread Cert.KernelIdeal.nD Cert.KernelIdeal.τ).loc Cert.KernelIdeal.main_arg1))
    ∧ Gcn.IsReal (m ((c.tc : Thread Cert.KernelIdeal.nD Cert.KernelIdeal.τ).loc Cert.KernelIdeal.main_arg3))
    ∧ Gcn.IsReal (m ((c.tc : Thread Cert.KernelIdeal.nD Cert.KernelIdeal.τ).loc Cert.KernelIdeal.main_arg4))
    ∧ Gcn.IsReal (m ((c.tc : Thread Cert.KernelIdeal.nD Cert.KernelIdeal.τ).loc Cert.KernelIdeal.main_arg5))
    ∧ Gcn.IsReal (m ((c.tc : Thread Cert.KernelIdeal.nD Cert.KernelIdeal.τ).loc Cert.KernelIdeal.main_arg6))
    ∧ Gcn.IsReal (m ((c.tc : Thread Cert.KernelIdeal.nD Cert.KernelIdeal.τ).loc Cert.KernelIdeal.main_arg7))
    ∧ Gcn.IsReal (m ((c.tc : Thread Cert.KernelIdeal.nD Cert.KernelIdeal.τ).loc Cert.KernelIdeal.main_arg8)) := by
  have h := congrFun (hpre c) ValueIdx.ix0
  dsimp only [Cert.Pre_finite_inputs.fn, Cert.Pre_finite_inputs.fn_part1, Cert.Pre_finite_inputs.fn_part2] at h
  -- the conjunction, innermost conjunct first: arrays 0 and 1, then 2, 3, …, 8
  obtain ⟨h, h8⟩ := (andi_apply_eq_one _ _ _).1 h
  obtain ⟨h, h7⟩ := (andi_apply_eq_one _ _ _).1 h
  obtain ⟨h, h6⟩ := (andi_apply_eq_one _ _ _).1 h
  obtain ⟨h, h5⟩ := (andi_apply_eq_one _ _ _).1 h
  obtain ⟨h, h4⟩ := (andi_apply_eq_one _ _ _).1 h
  obtain ⟨h, h3⟩ := (andi_apply_eq_one _ _ _).1 h
  obtain ⟨h, _⟩ := (andi_apply_eq_one _ _ _).1 h
  obtain ⟨h0, h1⟩ := (andi_apply_eq_one _ _ _).1 h
  exact ⟨isReal_of_all _ _ _ _ _ h0, isReal_of_all _ _ _ _ _ h1, isReal_of_all _ _ _ _ _ h3, isReal_of_all _ _ _ _ _ h4,
    isReal_of_all _ _ _ _ _ h5, isReal_of_all _ _ _ _ _ h6, isReal_of_all _ _ _ _ _ h7, isReal_of_all _ _ _ _ _ h8⟩

end Cert.KernelIdeal.Finite

end
-- ==== Proof.lean ====
/-
  The certificate of a four-layer graph-convolution network: the kernel, in five row-tiled regions, against the
  plain reference.

  Both programs compute h₀ = x · W₁ + b₁, three hidden layers h ↦ max(A · h · W + b + h, 0) and an output layer
  h ↦ max(A · h · W + b, 0). The kernel multiplies (A · h) · W, the reference A · (h · W); at the exact values a change
  of float format is the identity and a product into a zero accumulator is the plain sum, so the two differ exactly by
  the associativity of the matrix product. That law holds entry by entry on real numbers and fails on the extended
  reals in general, so the precondition (every input finite) is used: every input entry is a real number, hence so is
  every hidden state, layer after layer.

  The three frames are the generated frame proofs and the reference's generated run; the ideal pass rewrote nothing,
  so there is nothing to preserve; the value claim joins the kernel's result (the network aggregating first), the
  reference's result (the network projecting first) and the equality of the two on real inputs.
-/
import proofs.«104737_j52304111731095_2_alg».proof.Defs
import proofs.«104737_j52304111731095_2_alg».proof.Proof.Gen.Kernel
import proofs.«104737_j52304111731095_2_alg».proof.Proof.Gen.Kernel.Frame
import proofs.«104737_j52304111731095_2_alg».proof.Proof.Gen.KernelIdeal
import proofs.«104737_j52304111731095_2_alg».proof.Proof.Gen.KernelIdeal.Frame
import proofs.«104737_j52304111731095_2_alg».proof.Proof.Gen.ReferenceIdeal
import proofs.«104737_j52304111731095_2_alg».proof.Proof.Gen.Pre_finite_inputs
import proofs.«104737_j52304111731095_2_alg».proof.Proof.RefImports
import proofs.«104737_j52304111731095_2_alg».proof.Proof.KernelRun
import proofs.«104737_j52304111731095_2_alg».proof.Proof.KernelChain
import proofs.«104737_j52304111731095_2_alg».proof.Proof.RefValue
import proofs.«104737_j52304111731095_2_alg».proof.Proof.GcnAlgebra
import proofs.«104737_j52304111731095_2_alg».proof.Proof.FiniteInputs
import Idealize.ShloMosaic.Adequacy
import Idealize.ShloMosaic.Init

noncomputable section

namespace Cert.Proof.GcnClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- At the exact values the kernel's result is the network with every layer aggregating first (A · h, then the
    projection), the reference's the network with every layer projecting first (h · W, then A · …), of arguments that
    agree. Under the precondition every input entry is a real number, every hidden state is then a matrix of reals,
    and the matrix product is associative on reals: the two networks are one function. -/
theorem algebraic : Cert.algebraic_KernelIdeal_ReferenceIdeal := by
  intro m ρ m' ρ' hpre hagree
  refine ⟨fun c => Gcn.netAgg (Cert.KernelIdeal.Chain.arg m c Cert.KernelIdeal.main_arg0) (Cert.KernelIdeal.Chain.arg m c Cert.KernelIdeal.main_arg1)
      (Cert.KernelIdeal.Chain.arg m c Cert.KernelIdeal.main_arg3) (Cert.KernelIdeal.Chain.biasIn m c) (Cert.KernelIdeal.Chain.weightA m c)
      (Cert.KernelIdeal.Chain.biasA m c) (Cert.KernelIdeal.Chain.weightB m c) (Cert.KernelIdeal.Chain.biasB m c) (Cert.KernelIdeal.Chain.weightC m c)
      (Cert.KernelIdeal.Chain.biasC m c) (Cert.KernelIdeal.Chain.arg m c Cert.KernelIdeal.main_arg7) (Cert.KernelIdeal.Chain.biasOut m c), ?_, ?_⟩
  · exact (θ_run Cert.KernelIdeal.defs _ _).mono
      (fun r h c => ⟨(h c).1.trans (Cert.KernelIdeal.Chain.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨r0, r1, r3, r4, r5, r6, r7, r8⟩ := Cert.KernelIdeal.Finite.real_args m hpre c
    have e := Cert.ReferenceIdeal.RefValue.ref_value m' c Cert.KernelIdeal.Facts₀.shapeCasts_S64_S1x64 Cert.KernelIdeal.Facts₀.shapeCasts_S40_S1x40
    rw [(hagree c).1, (hagree c).2.1, (hagree c).2.2.2.1, (hagree c).2.2.2.2.1, (hagree c).2.2.2.2.2.1,
      (hagree c).2.2.2.2.2.2.1, (hagree c).2.2.2.2.2.2.2.1, (hagree c).2.2.2.2.2.2.2.2] at e
    refine e.trans (Eq.symm ?_)
    exact Gcn.netAgg_eq_netProj _ r0 r1 r3 (Gcn.isReal_shapeCast _ r4)
      (Gcn.isReal_shapeCast _ (Gcn.isReal_extractStridedSlice _ _ r5))
      (Gcn.isReal_shapeCast _ (Gcn.isReal_shapeCast _ (Gcn.isReal_extractStridedSlice _ _ r6)))
      (Gcn.isReal_shapeCast _ (Gcn.isReal_extractStridedSlice _ _ r5))
      (Gcn.isReal_shapeCast _ (Gcn.isReal_shapeCast _ (Gcn.isReal_extractStridedSlice _ _ r6)))
      (Gcn.isReal_shapeCast _ (Gcn.isReal_extractStridedSlice _ _ r5))
      (Gcn.isReal_shapeCast _ (Gcn.isReal_shapeCast _ (Gcn.isReal_extractStridedSlice _ _ r6)))
      r7

end Cert.Proof.GcnClaims

namespace Cert.Proof
theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩
end Cert.Proof

end
